-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x2 : Shape := ⟨2, ![8192, 2]⟩
abbrev S128x32 : Shape := ⟨2, ![128, 32]⟩
abbrev S32 : Shape := ⟨1, ![32]⟩
abbrev S32x32 : Shape := ⟨2, ![32, 32]⟩
abbrev S32x256 : Shape := ⟨2, ![32, 256]⟩
abbrev S256 : Shape := ⟨1, ![256]⟩
abbrev S2x256 : Shape := ⟨2, ![2, 256]⟩
abbrev S2x1 : Shape := ⟨2, ![2, 1]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S2x1 .f32) (main_arg15 : FVec F S1 .f32) (main_v63 : IVec S_ 1) (main_v67 : IVec S_ 1) : IVec S_ 1 :=
  let main_v68 : IVec S_ 1 := andi main_v63 main_v67
  let main_v69 : FVec F S2x1 .f32 := Host.absf main_arg14
  let main_cst_26 : FVec F S_ .f32 := constant S_ .f32 0x7F800000#32
  let main_v70 : FVec F S2x1 .f32 := broadcastInDim S2x1 ![] bcast_S_S2x1 main_cst_26
  let main_v71 : IVec S2x1 1 := cmpf .olt main_v69 main_v70
  let main_c_27 : IVec S_ 1 := constantI S_ 1 1#1
  let main_v72 : IVec S_ 1 := (fun x v => Host.reduce IntOp.andi x v reducesTo_S2x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S256 .f32) (main_arg12 : FVec F S2x256 .f32) (main_arg13 : FVec F S256 .f32) (main_arg14 : FVec F S2x1 .f32) (main_arg15 : FVec F S1 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S2x256 .f32 := Host.absf main_arg12
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S32 .f32) (main_arg8 : FVec F S32x32 .f32) (main_arg9 : FVec F S32 .f32) (main_arg10 : FVec F S32x256 .f32) (main_arg11 : FVec F S256 .f32) (main_arg12 : FVec F S2x256 .f32) (main_arg13 : FVec F S256 .f32) (main_arg14 : FVec F S2x1 .f32) (main_arg15 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x256 .f32 := Host.absf main_arg10
  let main_cst_18 : FVec F S_ .f32 := constant S_ .f32 0x7F800000#32
  let main_v50 : FVec F S32x256 .f32 := broadcastInDim S32x256 ![] bcast_S_S32x256 main_cst_18
  fn_part3 (F := F) main_arg11 main_arg12 main_arg13 main_arg14 main_arg15 main_v48 main_v49 main_v50

def fn_part1 {F : FTy → Type} [FloatOps F] (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x256 .f32) (main_arg11 : FVec F S256 .f32) (main_arg12 : FVec F S2x256 .f32) (main_arg13 : FVec F S256 .f32) (main_arg14 : FVec F S2x1 .f32) (main_arg15 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x128 .f32) (main_arg1 : FVec F S8192x2 .f32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x256 .f32) (main_arg11 : FVec F S256 .f32) (main_arg12 : FVec F S2x256 .f32) (main_arg13 : FVec F S256 .f32) (main_arg14 : FVec F S2x1 .f32) (main_arg15 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x128 : Shape := ⟨2, ![4096, 128]⟩
abbrev S8192x2 : Shape := ⟨2, ![8192, 2]⟩
abbrev S128x32 : Shape := ⟨2, ![128, 32]⟩
abbrev S32 : Shape := ⟨1, ![32]⟩
abbrev S32x32 : Shape := ⟨2, ![32, 32]⟩
abbrev S32x256 : Shape := ⟨2, ![32, 256]⟩
abbrev S256 : Shape := ⟨1, ![256]⟩
abbrev S2x256 : Shape := ⟨2, ![2, 256]⟩
abbrev S2x1 : Shape := ⟨2, ![2, 1]⟩
abbrev S1 : Shape := ⟨1, ![1]⟩
abbrev S1x32 : Shape := ⟨2, ![1, 32]⟩
abbrev S1x256 : Shape := ⟨2, ![1, 256]⟩
abbrev S1x1 : Shape := ⟨2, ![1, 1]⟩
abbrev S4096x256 : Shape := ⟨2, ![4096, 256]⟩
abbrev S4096x32 : Shape := ⟨2, ![4096, 32]⟩
abbrev S8192x256 : Shape := ⟨2, ![8192, 256]⟩
abbrev S8x8192 : Shape := ⟨2, ![8, 8192]⟩
abbrev S1x8192 : Shape := ⟨2, ![1, 8192]⟩
abbrev S4096x8192 : Shape := ⟨2, ![4096, 8192]⟩
abbrev S2048x256 : Shape := ⟨2, ![2048, 256]⟩
abbrev S8x2048 : Shape := ⟨2, ![8, 2048]⟩
abbrev S2048x2048 : Shape := ⟨2, ![2048, 2048]⟩
abbrev S1x2048 : Shape := ⟨2, ![1, 2048]⟩
abbrev S33554432 : Shape := ⟨1, ![33554432]⟩

abbrev nBuf : Space → Nat
  | .hbm => 28
  | .vmem => 27
  | .smem => 0
  | _ => 0

abbrev bufTy : (tb : Table) → Fin (tcTables nBuf tb) → BufTy
  | .hbm, ⟨0, _⟩ => ⟨S4096x128, .f32⟩
  | .hbm, ⟨1, _⟩ => ⟨S8192x2, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x256, .f32⟩
  | .hbm, ⟨11, _⟩ => ⟨S256, .f32⟩
  | .hbm, ⟨12, _⟩ => ⟨S2x256, .f32⟩
  | .hbm, ⟨13, _⟩ => ⟨S256, .f32⟩
  | .hbm, ⟨14, _⟩ => ⟨S2x1, .f32⟩
  | .hbm, ⟨15, _⟩ => ⟨S1, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x256, .f32⟩
  | .hbm, ⟨21, _⟩ => ⟨S1x256, .f32⟩
  | .hbm, ⟨22, _⟩ => ⟨S1x1, .f32⟩
  | .hbm, ⟨23, _⟩ => ⟨S4096x256, .f32⟩
  | .hbm, ⟨24, _⟩ => ⟨S8192x256, .f32⟩
  | .hbm, ⟨25, _⟩ => ⟨S8x8192, .f32⟩
  | .hbm, ⟨26, _⟩ => ⟨S4096x8192, .f32⟩
  | .hbm, ⟨27, _⟩ => ⟨S33554432, .f32⟩
  | .local _ .vmem, ⟨0, _⟩ => ⟨S4096x128, .f32⟩
  | .local _ .vmem, ⟨1, _⟩ => ⟨S128x32, .f32⟩
  | .local _ .vmem, ⟨2, _⟩ => ⟨S1x32, .f32⟩
  | .local _ .vmem, ⟨3, _⟩ => ⟨S32x32, .f32⟩
  | .local _ .vmem, ⟨4, _⟩ => ⟨S1x32, .f32⟩
  | .local _ .vmem, ⟨5, _⟩ => ⟨S32x32, .f32⟩
  | .local _ .vmem, ⟨6, _⟩ => ⟨S1x32, .f32⟩
  | .local _ .vmem, ⟨7, _⟩ => ⟨S32x32, .f32⟩
  | .local _ .vmem, ⟨8, _⟩ => ⟨S1x32, .f32⟩
  | .local _ .vmem, ⟨9, _⟩ => ⟨S32x256, .f32⟩
  | .local _ .vmem, ⟨10, _⟩ => ⟨S1x256, .f32⟩
  | .local _ .vmem, ⟨11, _⟩ => ⟨S4096x256, .f32⟩
  | .local _ .vmem, ⟨12, _⟩ => ⟨S8192x2, .f32⟩
  | .local _ .vmem, ⟨13, _⟩ => ⟨S2x256, .f32⟩
  | .local _ .vmem, ⟨14, _⟩ => ⟨S1x256, .f32⟩
  | .local _ .vmem, ⟨15, _⟩ => ⟨S2x1, .f32⟩
  | .local _ .vmem, ⟨16, _⟩ => ⟨S1x1, .f32⟩
  | .local _ .vmem, ⟨17, _⟩ => ⟨S8192x256, .f32⟩
  | .local _ .vmem, ⟨18, _⟩ => ⟨S8x8192, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S8x2048, .f32⟩
  | .local _ .vmem, ⟨24, _⟩ => ⟨S8x2048, .f32⟩
  | .local _ .vmem, ⟨25, _⟩ => ⟨S2048x2048, .f32⟩
  | .local _ .vmem, ⟨26, _⟩ => ⟨S2048x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x8192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S32_S1x32 : S32.ShapeCasts S1x32
  shapeCasts_S256_S1x256 : S256.ShapeCasts S1x256
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x32_S32x32_0_0 : ∀ a, (![0, 0] : Fin 2 → Nat) a + S32x32.size a ≤ S32x32.size a
  h_S32x32 : 0 < S32x32.numel
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  inb_S8192x2_S8192x2_0_0 : ∀ a, (![0, 0] : Fin 2 → Nat) a + S8192x2.size a ≤ S8192x2.size a
  h_S8192x2 : 0 < S8192x2.numel
  inb_S2x256_S2x256_0_0 : ∀ a, (![0, 0] : Fin 2 → Nat) a + S2x256.size a ≤ S2x256.size a
  h_S2x256 : 0 < S2x256.numel
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  inb_S2x1_S2x1_0_0 : ∀ a, (![0, 0] : Fin 2 → Nat) a + S2x1.size a ≤ S2x1.size a
  h_S2x1 : 0 < S2x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  shapeCasts_S1x8192_S1x8192 : S1x8192.ShapeCasts S1x8192
  broadcasts_S1x8192_S8x8192 : S1x8192.Broadcasts S8x8192
  inb_S8x8192_S8x8192_0_0 : ∀ a, (![0, 0] : Fin 2 → Nat) a + S8x8192.size a ≤ S8x8192.size a
  h_S8x8192 : 0 < S8x8192.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S8x2048_S1x2048_0_0 : ∀ a, (![0, 0] : Fin 2 → Nat) a + S1x2048.size a ≤ S8x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  shapeCasts_S4096x8192_S33554432 : S4096x8192.ShapeCasts S33554432
  dot_S4096x128_S128x32_S4096x32_1_0_0_1_n_n_wf : DotDims.WF S4096x128 S128x32 S4096x32 [1] [0] [0] [1] [] []
  dot_S4096x32_S32x32_S4096x32_1_0_0_1_n_n_wf : DotDims.WF S4096x32 S32x32 S4096x32 [1] [0] [0] [1] [] []
  dot_S4096x32_S32x256_S4096x256_1_0_0_1_n_n_wf : DotDims.WF S4096x32 S32x256 S4096x256 [1] [0] [0] [1] [] []
  dot_S8192x2_S2x256_S8192x256_1_0_0_1_n_n_wf : DotDims.WF S8192x2 S2x256 S8192x256 [1] [0] [0] [1] [] []
  dot_S2x1_S8192x2_S1x8192_0_1_1_0_n_n_wf : DotDims.WF S2x1 S8192x2 S1x8192 [0] [1] [1] [0] [] []
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x256.size a ≤ S32x256.size a
  hwx0_9 : ∀ i : grid0.Coords, EltTy.bits .f32 = 32 ∨ (Rect.block (s := S32x256) S32x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4096x256.size a ≤ S4096x256.size a
  hwx0_11 : ∀ i : grid0.Coords, EltTy.bits .f32 = 32 ∨ (Rect.block (s := S4096x256) S4096x256.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x2.size a ≤ S8192x2.size a
  hwx1_0 : ∀ i : grid1.Coords, EltTy.bits .f32 = 32 ∨ (Rect.block (s := S8192x2) S8192x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x256.size a ≤ S2x256.size a
  hwx1_1 : ∀ i : grid1.Coords, EltTy.bits .f32 = 32 ∨ (Rect.block (s := S2x256) S2x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x1.size a ≤ S2x1.size a
  hwx1_3 : ∀ i : grid1.Coords, EltTy.bits .f32 = 32 ∨ (Rect.block (s := S2x1) S2x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8192x256.size a ≤ S8192x256.size a
  hwx1_5 : ∀ i : grid1.Coords, EltTy.bits .f32 = 32 ∨ (Rect.block (s := S8192x256) S8192x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x8192.size a ≤ S8x8192.size a
  hwx1_6 : ∀ i : grid1.Coords, EltTy.bits .f32 = 32 ∨ (Rect.block (s := S8x8192) S8x8192.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S4096x256.size a
  hwx2_0 : ∀ i : grid2.Coords, EltTy.bits .f32 = 32 ∨ (Rect.block (s := S4096x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x2048.size a ≤ S8x8192.size a
  hwx2_2 : ∀ i : grid2.Coords, EltTy.bits .f32 = 32 ∨ (Rect.block (s := S8x8192) S8x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S4096x8192.size a
  hwx2_3 : ∀ i : grid2.Coords, EltTy.bits .f32 = 32 ∨ (Rect.block (s := S4096x8192) S2048x2048.size (cc2_transform_3 i) (hinb2_3 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def dot_S8192x2_S2x256_S8192x256_1_0_0_1_n_n : DotDims S8192x2 S2x256 S8192x256 where
  lhsContracting := [1]
  rhsContracting := [0]
  lhsNonContracting := [0]
  rhsNonContracting := [1]
  lhsBatch := []
  rhsBatch := []
  wf := dot_S8192x2_S2x256_S8192x256_1_0_0_1_n_n_wf
def dot_S2x1_S8192x2_S1x8192_0_1_1_0_n_n : DotDims S2x1 S8192x2 S1x8192 where
  lhsContracting := [0]
  rhsContracting := [1]
  lhsNonContracting := [1]
  rhsNonContracting := [0]
  lhsBatch := []
  rhsBatch := []
  wf := dot_S2x1_S8192x2_S1x8192_0_1_1_0_n_n_wf
def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S32x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S4096x256.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S8192x2.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S2x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S8192x256.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S8x8192.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_0) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8_1) S8x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S2048x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x128 : Shape := ⟨2, ![4096, 128]⟩
abbrev S8192x2 : Shape := ⟨2, ![8192, 2]⟩
abbrev S128x32 : Shape := ⟨2, ![128, 32]⟩
abbrev S32 : Shape := ⟨1, ![32]⟩
abbrev S32x32 : Shape := ⟨2, ![32, 32]⟩
abbrev S32x256 : Shape := ⟨2, ![32, 256]⟩
abbrev S256 : Shape := ⟨1, ![256]⟩
abbrev S2x256 : Shape := ⟨2, ![2, 256]⟩
abbrev S2x1 : Shape := ⟨2, ![2, 1]⟩
abbrev S1 : Shape := ⟨1, ![1]⟩
abbrev S4096x32 : Shape := ⟨2, ![4096, 32]⟩
abbrev S1x32 : Shape := ⟨2, ![1, 32]⟩
abbrev S4096x256 : Shape := ⟨2, ![4096, 256]⟩
abbrev S1x256 : Shape := ⟨2, ![1, 256]⟩
abbrev S8192x256 : Shape := ⟨2, ![8192, 256]⟩
abbrev S8192x1 : Shape := ⟨2, ![8192, 1]⟩
abbrev S1x1 : Shape := ⟨2, ![1, 1]⟩
abbrev S8192 : Shape := ⟨1, ![8192]⟩
abbrev S256x8192 : Shape := ⟨2, ![256, 8192]⟩
abbrev S4096x8192 : Shape := ⟨2, ![4096, 8192]⟩
abbrev S1x8192 : Shape := ⟨2, ![1, 8192]⟩
abbrev S33554432 : Shape := ⟨1, ![33554432]⟩

abbrev nBuf : Space → Nat
  | .hbm => 55
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x2, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x256, .f32⟩
  | .hbm, ⟨11, _⟩ => ⟨S256, .f32⟩
  | .hbm, ⟨12, _⟩ => ⟨S2x256, .f32⟩
  | .hbm, ⟨13, _⟩ => ⟨S256, .f32⟩
  | .hbm, ⟨14, _⟩ => ⟨S2x1, .f32⟩
  | .hbm, ⟨15, _⟩ => ⟨S1, .f32⟩
  | .hbm, ⟨16, _⟩ => ⟨S4096x32, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S8192x1, .f32⟩
  | .hbm, ⟨45, _⟩ => ⟨S1x1, .f32⟩
  | .hbm, ⟨46, _⟩ => ⟨S8192x1, .f32⟩
  | .hbm, ⟨47, _⟩ => ⟨S8192x1, .f32⟩
  | .hbm, ⟨48, _⟩ => ⟨S8192, .f32⟩
  | .hbm, ⟨49, _⟩ => ⟨S256x8192, .f32⟩
  | .hbm, ⟨50, _⟩ => ⟨S4096x8192, .f32⟩
  | .hbm, ⟨51, _⟩ => ⟨S1x8192, .f32⟩
  | .hbm, ⟨52, _⟩ => ⟨S4096x8192, .f32⟩
  | .hbm, ⟨53, _⟩ => ⟨S4096x8192, .f32⟩
  | .hbm, ⟨54, _⟩ => ⟨S33554432, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  transposes_S8192x256_S256x8192_1_0 : S8192x256.Transposes [1, 0] S256x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S33554432 : S4096x8192.ShapeCasts S33554432
  dot_S4096x128_S128x32_S4096x32_1_0_0_1_n_n_wf : DotDims.WF S4096x128 S128x32 S4096x32 [1] [0] [0] [1] [] []
  dot_S4096x32_S32x32_S4096x32_1_0_0_1_n_n_wf : DotDims.WF S4096x32 S32x32 S4096x32 [1] [0] [0] [1] [] []
  dot_S4096x32_S32x256_S4096x256_1_0_0_1_n_n_wf : DotDims.WF S4096x32 S32x256 S4096x256 [1] [0] [0] [1] [] []
  dot_S8192x2_S2x256_S8192x256_1_0_0_1_n_n_wf : DotDims.WF S8192x2 S2x256 S8192x256 [1] [0] [0] [1] [] []
  dot_S8192x2_S2x1_S8192x1_1_0_0_1_n_n_wf : DotDims.WF S8192x2 S2x1 S8192x1 [1] [0] [0] [1] [] []
  dot_S4096x256_S256x8192_S4096x8192_1_0_0_1_n_n_wf : DotDims.WF S4096x256 S256x8192 S4096x8192 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def dot_S8192x2_S2x256_S8192x256_1_0_0_1_n_n : DotDims S8192x2 S2x256 S8192x256 where
  lhsContracting := [1]
  rhsContracting := [0]
  lhsNonContracting := [0]
  rhsNonContracting := [1]
  lhsBatch := []
  rhsBatch := []
  wf := dot_S8192x2_S2x256_S8192x256_1_0_0_1_n_n_wf
def dot_S8192x2_S2x1_S8192x1_1_0_0_1_n_n : DotDims S8192x2 S2x1 S8192x1 where
  lhsContracting := [1]
  rhsContracting := [0]
  lhsNonContracting := [0]
  rhsNonContracting := [1]
  lhsBatch := []
  rhsBatch := []
  wf := dot_S8192x2_S2x1_S8192x1_1_0_0_1_n_n_wf
def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«123991_j42245298323680_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«123991_j42245298323680_2_alg».proof.Proof.LibPlainDotFormats
import proofs.«123991_j42245298323680_2_alg».proof.Proof.LibKeepdims
import proofs.«123991_j42245298323680_2_alg».proof.Proof.LibJoinedRows
import proofs.«123991_j42245298323680_2_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Spec.lean ====
/-
  What the operator network computes, as whole-array functions over the extended reals.

  A branch network (four hidden layers tanh(x·w + b) and a linear head) turns the 4096 noise vectors into 256
  coefficients each; a trunk map (one linear layer) turns each of the 8192 coordinates into 256 modes; a second linear
  map of the coordinates gives one mean value per coordinate.  The output field at (sample p, coordinate c) is the
  pairing of row p of the coefficients with row c of the modes, plus the mean value of coordinate c.

  Every function here is stated entry by entry over arrays of any extents; bias vectors enter as one-row arrays
  (`asRow`).  Nothing needs an entry to be finite: each identity used later is the same sums and products of the same
  entries, up to the order of the two factors of a product.
-/
import Idealize.ShloMosaic.PureOps.Ideal.Laws
import Idealize.ShloMosaic.Lib.ValueIdx
import Idealize.ShloMosaic.Lib.Pipeline.Value
import proofs.«123991_j42245298323680_2_alg».proof.Proof.LibTileOps
import proofs.«123991_j42245298323680_2_alg».proof.Proof.LibRowLayout

noncomputable section

namespace Cert.Net

open Idealize.ShloMosaic Idealize.ShloMosaic.ValueIdx Cert.LibTileOps
open scoped BigOperators

variable {A K B N R : ℕ}

/-- A vector laid out as a one-row array. -/
def asRow (b : FVec Ideal ⟨1, ![B]⟩ .f32) : FVec Ideal ⟨2, ![1, B]⟩ .f32 := fun i => b (ix1 (i 1))

theorem asRow_apply (b : FVec Ideal ⟨1, ![B]⟩ .f32) (u : Fin 1) (j : Fin B) : asRow b (ix2 u j) = b (ix1 j) := rfl

/-- A vector cast to a one-row array is that row. -/
theorem shapeCast_eq_asRow (b : FVec Ideal ⟨1, ![B]⟩ .f32) (h : (⟨1, ![B]⟩ : Shape).ShapeCasts ⟨2, ![1, B]⟩) :
    shapeCast ⟨2, ![1, B]⟩ b h = asRow b := by
  funext i
  obtain ⟨u, j, rfl⟩ : ∃ (u : Fin 1) (j : Fin B), i = ix2 u j := ⟨i 0, i 1, eq_ix2 i⟩
  exact Cert.LibRowLayout.shapeCast_b_1b_apply b h u j

/-- The hyperbolic tangent of every entry. -/
def tanhAll (x : FVec Ideal ⟨2, ![A, B]⟩ .f32) : FVec Ideal ⟨2, ![A, B]⟩ .f32 := fun i => Ideal.tanh (x i)

/-- A linear layer x·w + b, the bias a one-row array. -/
def linear (x : FVec Ideal ⟨2, ![A, K]⟩ .f32) (w : FVec Ideal ⟨2, ![K, B]⟩ .f32) (b : FVec Ideal ⟨2, ![1, B]⟩ .f32) :
    FVec Ideal ⟨2, ![A, B]⟩ .f32 :=
  addRow (matProd x w) b

/-- A hidden layer tanh(x·w + b). -/
def hidden (x : FVec Ideal ⟨2, ![A, K]⟩ .f32) (w : FVec Ideal ⟨2, ![K, B]⟩ .f32) (b : FVec Ideal ⟨2, ![1, B]⟩ .f32) :
    FVec Ideal ⟨2, ![A, B]⟩ .f32 :=
  tanhAll (linear x w b)

/-- The branch network: four hidden layers and a linear head. -/
def branch {D H P : ℕ} (x : FVec Ideal ⟨2, ![A, D]⟩ .f32)
    (w1 : FVec Ideal ⟨2, ![D, H]⟩ .f32) (b1 : FVec Ideal ⟨2, ![1, H]⟩ .f32)
    (w2 : FVec Ideal ⟨2, ![H, H]⟩ .f32) (b2 : FVec Ideal ⟨2, ![1, H]⟩ .f32)
    (w3 : FVec Ideal ⟨2, ![H, H]⟩ .f32) (b3 : FVec Ideal ⟨2, ![1, H]⟩ .f32)
    (w4 : FVec Ideal ⟨2, ![H, H]⟩ .f32) (b4 : FVec Ideal ⟨2, ![1, H]⟩ .f32)
    (w5 : FVec Ideal ⟨2, ![H, P]⟩ .f32) (b5 : FVec Ideal ⟨2, ![1, P]⟩ .f32) : FVec Ideal ⟨2, ![A, P]⟩ .f32 :=
  linear (hidden (hidden (hidden (hidden x w1 b1) w2 b2) w3 b3) w4 b4) w5 b5

/-- Rows against rows: entry (p, c) is Σ_k x(p, k) · y(c, k). -/
def rowsProd (x : FVec Ideal ⟨2, ![A, K]⟩ .f32) (y : FVec Ideal ⟨2, ![B, K]⟩ .f32) : FVec Ideal ⟨2, ![A, B]⟩ .f32 :=
  fun i => ∑ k : Fin K, x (ix2 (i 0) k) * y (ix2 (i 1) k)

theorem rowsProd_apply (x : FVec Ideal ⟨2, ![A, K]⟩ .f32) (y : FVec Ideal ⟨2, ![B, K]⟩ .f32) (p : Fin A) (c : Fin B) :
    rowsProd x y (ix2 p c) = ∑ k : Fin K, x (ix2 p k) * y (ix2 c k) := rfl

/-- The mean field as a one-row array: entry (0, j) is Σ_k wm(k, 0) · coords(j, k) + bm(0, 0). -/
def meanRow (wm : FVec Ideal ⟨2, ![K, 1]⟩ .f32) (coords : FVec Ideal ⟨2, ![N, K]⟩ .f32) (bm : FVec Ideal ⟨2, ![1, 1]⟩ .f32) :
    FVec Ideal ⟨2, ![1, N]⟩ .f32 :=
  fun i => (∑ k : Fin K, wm (ix2 k (0 : Fin 1)) * coords (ix2 (i 1) k)) + bm (ix2 (0 : Fin 1) (0 : Fin 1))

theorem meanRow_apply (wm : FVec Ideal ⟨2, ![K, 1]⟩ .f32) (coords : FVec Ideal ⟨2, ![N, K]⟩ .f32)
    (bm : FVec Ideal ⟨2, ![1, 1]⟩ .f32) (u : Fin 1) (j : Fin N) :
    meanRow wm coords bm (ix2 u j) = (∑ k : Fin K, wm (ix2 k (0 : Fin 1)) * coords (ix2 j k)) + bm (ix2 (0 : Fin 1) (0 : Fin 1)) := rfl

/-- A one-row array repeated down `R` rows. -/
def repeatRow (r : FVec Ideal ⟨2, ![1, N]⟩ .f32) : FVec Ideal ⟨2, ![R, N]⟩ .f32 := fun i => r (ix2 (0 : Fin 1) (i 1))

theorem repeatRow_apply (r : FVec Ideal ⟨2, ![1, N]⟩ .f32) (u : Fin R) (j : Fin N) :
    (repeatRow r : FVec Ideal ⟨2, ![R, N]⟩ .f32) (ix2 u j) = r (ix2 (0 : Fin 1) j) := rfl

/-- The pairing with a bias: entry (p, c) is Σ_k x(p, k) · y(c, k) plus the TOP row of `r` at column c. -/
def pairing [NeZero R] (x : FVec Ideal ⟨2, ![A, K]⟩ .f32) (y : FVec Ideal ⟨2, ![B, K]⟩ .f32)
    (r : FVec Ideal ⟨2, ![R, B]⟩ .f32) : FVec Ideal ⟨2, ![A, B]⟩ .f32 :=
  fun i => rowsProd x y i + r (ix2 (0 : Fin R) (i 1))

theorem pairing_apply [NeZero R] (x : FVec Ideal ⟨2, ![A, K]⟩ .f32) (y : FVec Ideal ⟨2, ![B, K]⟩ .f32)
    (r : FVec Ideal ⟨2, ![R, B]⟩ .f32) (p : Fin A) (c : Fin B) :
    pairing x y r (ix2 p c) = (∑ k : Fin K, x (ix2 p k) * y (ix2 c k)) + r (ix2 (0 : Fin R) c) := rfl

/-- Only the top row of the bias is read, so a repeated row may be replaced by the row. -/
theorem pairing_repeatRow [NeZero R] (x : FVec Ideal ⟨2, ![A, K]⟩ .f32) (y : FVec Ideal ⟨2, ![B, K]⟩ .f32)
    (r : FVec Ideal ⟨2, ![1, B]⟩ .f32) :
    pairing x y (repeatRow r : FVec Ideal ⟨2, ![R, B]⟩ .f32) = pairing x y r := rfl

/-- The output field of the network, before it is flattened: sample p against coordinate c. -/
def field {D H P : ℕ} (noise : FVec Ideal ⟨2, ![A, D]⟩ .f32) (coords : FVec Ideal ⟨2, ![N, K]⟩ .f32)
    (w1 : FVec Ideal ⟨2, ![D, H]⟩ .f32) (b1 : FVec Ideal ⟨1, ![H]⟩ .f32)
    (w2 : FVec Ideal ⟨2, ![H, H]⟩ .f32) (b2 : FVec Ideal ⟨1, ![H]⟩ .f32)
    (w3 : FVec Ideal ⟨2, ![H, H]⟩ .f32) (b3 : FVec Ideal ⟨1, ![H]⟩ .f32)
    (w4 : FVec Ideal ⟨2, ![H, H]⟩ .f32) (b4 : FVec Ideal ⟨1, ![H]⟩ .f32)
    (w5 : FVec Ideal ⟨2, ![H, P]⟩ .f32) (b5 : FVec Ideal ⟨1, ![P]⟩ .f32)
    (wc : FVec Ideal ⟨2, ![K, P]⟩ .f32) (bc : FVec Ideal ⟨1, ![P]⟩ .f32)
    (wm : FVec Ideal ⟨2, ![K, 1]⟩ .f32) (bm : FVec Ideal ⟨1, ![1]⟩ .f32) : FVec Ideal ⟨2, ![A, N]⟩ .f32 :=
  pairing (branch noise w1 (asRow b1) w2 (asRow b2) w3 (asRow b3) w4 (asRow b4) w5 (asRow b5))
    (linear coords wc (asRow bc)) (meanRow wm coords (asRow bm))

end Cert.Net

end
-- ==== Proof.RefValue.lean ====
/-
  The reference program's result is the flattened output field of the operator network.

  The reference computes, with whole-array host operations: four layers tanh(x·w + b) and a linear head on the noise
  vectors; one linear layer on the coordinates; a second linear map of the coordinates to one value each; then the
  product of the first result with the TRANSPOSE of the second, plus the third spread down the rows; and a final
  flattening.  Each stage is one of the entry-by-entry functions of the specification:

  * a product of plain dimension numbers followed by a sum with a vector broadcast to one row and then down the rows
    is the linear layer x·w + b with the vector laid out as a one-row array;
  * the host's tanh of an array is the tanh of every entry;
  * a product with a transposed array reads, at (p, c), row p of the left operand against row c of the array that was
    transposed;
  * the per-coordinate value [N, 1], flattened to [N], broadcast to one row and then down the rows, reads at (p, c)
    its entry c: the sum over k of coords(c, k) · wm(k, 0), plus the one bias entry.  The specification writes the
    same products with the factors in the other order; multiplication of extended reals is commutative.

  Nothing needs an entry to be finite.
-/
import proofs.«123991_j42245298323680_2_alg».proof.Proof.Gen.ReferenceIdeal.Run
import proofs.«123991_j42245298323680_2_alg».proof.Proof.Gen.ReferenceIdeal.Read
import proofs.«123991_j42245298323680_2_alg».proof.Proof.Spec
import proofs.«123991_j42245298323680_2_alg».proof.Proof.LibPlainDot
import proofs.«123991_j42245298323680_2_alg».proof.Proof.LibTileOps
import proofs.«123991_j42245298323680_2_alg».proof.Proof.LibJoinedRows
import proofs.«123991_j42245298323680_2_alg».proof.Proof.LibRowBcast

noncomputable section

namespace Cert.Net.Ref

open Cert.ReferenceIdeal Cert.ReferenceIdeal.Gen Idealize.ShloMosaic Idealize.ShloMosaic.ValueIdx Cert.LibTileOps
open scoped BigOperators

/-! ## The stages, for arrays of any extents -/

section General
variable {A K B N P : ℕ}

/-- The host's tanh of an array is the tanh of every entry. -/
theorem tanh_eq_tanhAll (x : FVec Ideal ⟨2, ![A, B]⟩ .f32) : Host.tanh x = tanhAll x := rfl

/-- A plain product plus a vector broadcast to one row and then down the rows is the linear layer. -/
theorem linear_eq {D : DotDims ⟨2, ![A, K]⟩ ⟨2, ![K, B]⟩ ⟨2, ![A, B]⟩} (hD : Cert.LibPlainDot.Plain D)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (x : FVec Ideal ⟨2, ![A, K]⟩ .f32) (w : FVec Ideal ⟨2, ![K, B]⟩ .f32) (b : FVec Ideal ⟨1, ![B]⟩ .f32) :
    addf (Host.dotGeneral D none x w) (broadcastInDim ⟨2, ![A, B]⟩ ![0, 1] h2 (broadcastInDim ⟨2, ![1, B]⟩ ![1] h1 b))
      = linear x w (asRow b) := by
  funext i
  obtain ⟨p, q, rfl⟩ : ∃ (p : Fin A) (q : Fin B), i = ix2 p q := ⟨i 0, i 1, eq_ix2 i⟩
  rw [linear, addRow_apply, addf_apply, Cert.LibRowBcast.bcast_vec_rows_apply, dotGeneral_eq_matProd hD, asRow_apply]

/-- The same followed by the host's tanh is the hidden layer. -/
theorem hidden_eq {D : DotDims ⟨2, ![A, K]⟩ ⟨2, ![K, B]⟩ ⟨2, ![A, B]⟩} (hD : Cert.LibPlainDot.Plain D)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (x : FVec Ideal ⟨2, ![A, K]⟩ .f32) (w : FVec Ideal ⟨2, ![K, B]⟩ .f32) (b : FVec Ideal ⟨1, ![B]⟩ .f32) :
    Host.tanh (addf (Host.dotGeneral D none x w)
        (broadcastInDim ⟨2, ![A, B]⟩ ![0, 1] h2 (broadcastInDim ⟨2, ![1, B]⟩ ![1] h1 b)))
      = hidden x w (asRow b) := by
  rw [linear_eq hD, tanh_eq_tanhAll, hidden]

/-- A one-column array flattened to a vector reads, at j, the column's entry of row j: both sit at row-major
    position j. -/
theorem shapeCast_n1_n_apply {α : Type} (z : (⟨2, ![N, 1]⟩ : Shape).Idx → α)
    (h : (⟨2, ![N, 1]⟩ : Shape).ShapeCasts ⟨1, ![N]⟩) (j : Fin N) :
    shapeCast ⟨1, ![N]⟩ z h (ix1 j) = z (ix2 j (0 : Fin 1)) :=
  shapeCast_apply z h _ _ (by
    rw [Shape.rowMajor_val_two, Shape.rowMajor_val_one]
    show j.val * 1 + 0 = j.val
    rw [Nat.mul_one, Nat.add_zero])

/-- The product with a transposed array, plus the flattened per-column values spread down the rows, is the pairing
    with the mean row. -/
theorem pairing_eq {D : DotDims ⟨2, ![A, P]⟩ ⟨2, ![P, N]⟩ ⟨2, ![A, N]⟩} (hD : Cert.LibPlainDot.Plain D)
    {Dm : DotDims ⟨2, ![N, K]⟩ ⟨2, ![K, 1]⟩ ⟨2, ![N, 1]⟩} (hDm : Cert.LibPlainDot.Plain Dm)
    (ht : (⟨2, ![N, P]⟩ : Shape).Transposes [1, 0] ⟨2, ![P, N]⟩)
    (g1 : (⟨1, ![1]⟩ : Shape).BroadcastsInDim ⟨2, ![1, 1]⟩ (![1] : Fin 1 → Fin 2))
    (g2 : (⟨2, ![1, 1]⟩ : Shape).BroadcastsInDim ⟨2, ![N, 1]⟩ (![0, 1] : Fin 2 → Fin 2))
    (hc : (⟨2, ![N, 1]⟩ : Shape).ShapeCasts ⟨1, ![N]⟩)
    (h1 : (⟨1, ![N]⟩ : Shape).BroadcastsInDim ⟨2, ![1, N]⟩ (![1] : Fin 1 → Fin 2))
    (h2 : (⟨2, ![1, N]⟩ : Shape).BroadcastsInDim ⟨2, ![A, N]⟩ (![0, 1] : Fin 2 → Fin 2))
    (x : FVec Ideal ⟨2, ![A, P]⟩ .f32) (y : FVec Ideal ⟨2, ![N, P]⟩ .f32)
    (coords : FVec Ideal ⟨2, ![N, K]⟩ .f32) (wm : FVec Ideal ⟨2, ![K, 1]⟩ .f32) (bm : FVec Ideal ⟨1, ![1]⟩ .f32) :
    addf (Host.dotGeneral D none x (transpose ⟨2, ![P, N]⟩ [1, 0] y ht))
        (broadcastInDim ⟨2, ![A, N]⟩ ![0, 1] h2 (broadcastInDim ⟨2, ![1, N]⟩ ![1] h1
          (shapeCast ⟨1, ![N]⟩
            (addf (Host.dotGeneral Dm none coords wm)
              (broadcastInDim ⟨2, ![N, 1]⟩ ![0, 1] g2 (broadcastInDim ⟨2, ![1, 1]⟩ ![1] g1 bm))) hc)))
      = pairing x y (meanRow wm coords (asRow bm)) := by
  funext i
  obtain ⟨p, c, rfl⟩ : ∃ (p : Fin A) (c : Fin N), i = ix2 p c := ⟨i 0, i 1, eq_ix2 i⟩
  rw [pairing_apply, meanRow_apply, asRow_apply, addf_apply, Cert.LibRowBcast.bcast_vec_rows_apply,
    shapeCast_n1_n_apply, addf_apply, Cert.LibRowBcast.bcast_vec_rows_apply]
  simp only [Host.dotGeneral]
  rw [hD.dotGeneral_apply, hDm.dotGeneral_apply]
  congr 1
  · exact Finset.sum_congr rfl fun k _ => by rw [Cert.LibJoinedRows.transpose2_apply]
  · congr 1
    exact Finset.sum_congr rfl fun k _ => mul_comm _ _

end General

/-! ## The reference program's result -/

theorem ref_eq (a0 : FVec Ideal S4096x128 .f32) (a1 : FVec Ideal S8192x2 .f32) (a2 : FVec Ideal S128x32 .f32)
    (a3 : FVec Ideal S32 .f32) (a4 : FVec Ideal S32x32 .f32) (a5 : FVec Ideal S32 .f32) (a6 : FVec Ideal S32x32 .f32)
    (a7 : FVec Ideal S32 .f32) (a8 : FVec Ideal S32x32 .f32) (a9 : FVec Ideal S32 .f32) (a10 : FVec Ideal S32x256 .f32)
    (a11 : FVec Ideal S256 .f32) (a12 : FVec Ideal S2x256 .f32) (a13 : FVec Ideal S256 .f32) (a14 : FVec Ideal S2x1 .f32)
    (a15 : FVec Ideal S1 .f32) :
    shapeCast _ (addf (Host.dotGeneral dot_S4096x256_S256x8192_S4096x8192_1_0_0_1_n_n none (addf (Host.dotGeneral dot_S4096x32_S32x256_S4096x256_1_0_0_1_n_n none (Host.tanh (addf (Host.dotGeneral dot_S4096x32_S32x32_S4096x32_1_0_0_1_n_n none (Host.tanh (addf (Host.dotGeneral dot_S4096x32_S32x32_S4096x32_1_0_0_1_n_n none (Host.tanh (addf (Host.dotGeneral dot_S4096x32_S32x32_S4096x32_1_0_0_1_n_n none (Host.tanh (addf (Host.dotGeneral dot_S4096x128_S128x32_S4096x32_1_0_0_1_n_n none a0 a2) (broadcastInDim S4096x32 ![0, 1] bcast_S1x32_S4096x32_0_1 (broadcastInDim S1x32 ![1] bcast_S32_S1x32_1 a3)))) a4) (broadcastInDim S4096x32 ![0, 1] bcast_S1x32_S4096x32_0_1 (broadcastInDim S1x32 ![1] bcast_S32_S1x32_1 a5)))) a6) (broadcastInDim S4096x32 ![0, 1] bcast_S1x32_S4096x32_0_1 (broadcastInDim S1x32 ![1] bcast_S32_S1x32_1 a7)))) a8) (broadcastInDim S4096x32 ![0, 1] bcast_S1x32_S4096x32_0_1 (broadcastInDim S1x32 ![1] bcast_S32_S1x32_1 a9)))) a10) (broadcastInDim S4096x256 ![0, 1] bcast_S1x256_S4096x256_0_1 (broadcastInDim S1x256 ![1] bcast_S256_S1x256_1 a11))) (transpose S256x8192 [1, 0] (addf (Host.dotGeneral dot_S8192x2_S2x256_S8192x256_1_0_0_1_n_n none a1 a12) (broadcastInDim S8192x256 ![0, 1] bcast_S1x256_S8192x256_0_1 (broadcastInDim S1x256 ![1] bcast_S256_S1x256_1 a13))) transposes_S8192x256_S256x8192_1_0)) (broadcastInDim S4096x8192 ![0, 1] bcast_S1x8192_S4096x8192_0_1 (broadcastInDim S1x8192 ![1] bcast_S8192_S1x8192_1 (shapeCast _ (addf (Host.dotGeneral dot_S8192x2_S2x1_S8192x1_1_0_0_1_n_n none a1 a14) (broadcastInDim S8192x1 ![0, 1] bcast_S1x1_S8192x1_0_1 (broadcastInDim S1x1 ![1] bcast_S1_S1x1_1 a15))) shapeCasts_S8192x1_S8192)))) shapeCasts_S4096x8192_S33554432
      = shapeCast S33554432 (Cert.Net.field a0 a1 a2 a3 a4 a5 a6 a7 a8 a9 a10 a11 a12 a13 a14 a15)
          shapeCasts_S4096x8192_S33554432 := by
  rw [hidden_eq (D := dot_S4096x128_S128x32_S4096x32_1_0_0_1_n_n) ⟨rfl, rfl, rfl, rfl, rfl, rfl⟩,
    hidden_eq (D := dot_S4096x32_S32x32_S4096x32_1_0_0_1_n_n) ⟨rfl, rfl, rfl, rfl, rfl, rfl⟩,
    hidden_eq (D := dot_S4096x32_S32x32_S4096x32_1_0_0_1_n_n) ⟨rfl, rfl, rfl, rfl, rfl, rfl⟩,
    hidden_eq (D := dot_S4096x32_S32x32_S4096x32_1_0_0_1_n_n) ⟨rfl, rfl, rfl, rfl, rfl, rfl⟩,
    linear_eq (D := dot_S4096x32_S32x256_S4096x256_1_0_0_1_n_n) ⟨rfl, rfl, rfl, rfl, rfl, rfl⟩,
    linear_eq (D := dot_S8192x2_S2x256_S8192x256_1_0_0_1_n_n) ⟨rfl, rfl, rfl, rfl, rfl, rfl⟩,
    pairing_eq (D := dot_S4096x256_S256x8192_S4096x8192_1_0_0_1_n_n) ⟨rfl, rfl, rfl, rfl, rfl, rfl⟩
      (Dm := dot_S8192x2_S2x1_S8192x1_1_0_0_1_n_n) ⟨rfl, rfl, rfl, rfl, rfl, rfl⟩]
  rfl

end Cert.Net.Ref

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.LibColRowDot.lean ====
/-
  A product of the columns of one matrix with the rows of another, read at an entry.

  A contraction whose dimension numbers say "the first axis of a [K, A] operand against the second axis of a [B, K]
  operand, no batch axis, result [A, B]" reads its left operand at (k, row of the result) and its right operand at
  (column of the result, k), `k` ranging over the one contracted axis.  So the sum over the contraction index of the
  operands' products, at result entry (p, c), is `Σ_{k < K} l (k, p) · r (c, k)`: column p of the left operand against
  row c of the right one (the transpose of the plain product r · l); a `tpu.matmul` into the zero splat is exactly
  that sum at the ideal values.  Generic in K, A, B, in the record and in the operands' float formats: the hypotheses
  are the record's six lists.
-/
import Idealize.ShloMosaic.PureOps.Ideal.Laws
import Idealize.ShloMosaic.Lib.ValueIdx

noncomputable section

namespace Cert.LibColRowDot

open Idealize.ShloMosaic Idealize.ShloMosaic.ValueIdx

/-- The dimension numbers of a product of columns with rows `[K, A] × [B, K] → [A, B]`. -/
structure ColRow {K A B : Nat} (D : DotDims ⟨2, ![K, A]⟩ ⟨2, ![B, K]⟩ ⟨2, ![A, B]⟩) : Prop where
  lc : D.lhsContracting = [0]
  rc : D.rhsContracting = [1]
  ln : D.lhsNonContracting = [1]
  rn : D.rhsNonContracting = [0]
  lb : D.lhsBatch = []
  rb : D.rhsBatch = []

variable {K A B : Nat} {D : DotDims ⟨2, ![K, A]⟩ ⟨2, ![B, K]⟩ ⟨2, ![A, B]⟩}

/-- One axis is contracted. -/
theorem ColRow.rank (h : ColRow D) : D.contr.rank = 1 := by rw [D.rank_contr, h.lc]; rfl

/-- Its extent is `K`. -/
theorem ColRow.size (h : ColRow D) : D.contr.size ⟨0, by rw [h.rank]; exact Nat.one_pos⟩ = K := by
  rw [D.size_contr 0 (by rw [h.lc]; exact Nat.one_pos)]
  simp only [h.lc, List.getElem_cons_zero]
  rfl

/-- The left operand is read at the contraction position … -/
theorem ColRow.lhs0 (h : ColRow D) (j : (⟨2, ![A, B]⟩ : Shape).Idx) (q : D.contr.Idx) :
    (D.lhsIdx j q 0).val = (q ⟨0, by rw [h.rank]; exact Nat.one_pos⟩).val :=
  D.lhsIdx_val_of_single h.lc j q

/-- … and the result's row, which is ITS column, -/
theorem ColRow.lhs1 (h : ColRow D) (j : (⟨2, ![A, B]⟩ : Shape).Idx) (q : D.contr.Idx) : (D.lhsIdx j q 1).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- the right operand at the result's column, which is ITS row … -/
theorem ColRow.rhs0 (h : ColRow D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem ColRow.rhs1 (h : ColRow D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (k, p) · r (c, k)`. -/
theorem ColRow.sum_eq (h : ColRow D) (l : (⟨2, ![K, A]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 k p) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 k p := funext fun a => Fin.ext (by
    match a with
    | ⟨0, _⟩ => exact (h.lhs0 _ _).trans hk
    | ⟨1, _⟩ => exact h.lhs1 _ _)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem ColRow.matmul_zero_apply (h : ColRow D) (prec : Option ContractPrecision) {φ₁ φ₂ : FTy}
    (l : FVec Ideal ⟨2, ![K, A]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 k p) * r (ix2 c k) :=
  (Ideal.matmul_constant_zero_apply D prec l r (ix2 p c)).trans (h.sum_eq l r p c)

end Cert.LibColRowDot

end
-- ==== Proof.KernelBodies.lean ====
/-
  What each of the three kernels' bodies leaves in its output buffer, as a whole-array function of its input blocks.

  Each output buffer is written by ONE store of the whole block, and each input buffer is read whole (the bias of the
  pairing kernel excepted: its top row only), so the buffer after the body is the stored array itself.  That array is
  a short composition of products into the zero array, bias rows spread down the rows, sums and hyperbolic tangents,
  and each of these is one of the network's whole-array functions:

  * a product [A, K] × [K, B] into the zero array, plus a bias row spread down the rows, is a linear layer; its
    entrywise hyperbolic tangent is a hidden layer; four hidden layers and a linear head are the branch network;
  * a product that contracts the ROWS of a one-column array against the columns of the coordinates, plus a one-entry
    bias spread along the row, is the mean row; spread down the rows of the buffer it is the row repeated;
  * rows against rows (the operands first rounded to a narrower format, which changes no ideal value), plus the top
    row of the bias buffer spread down the rows, is the pairing.

  The small lemmas are stated for any extents; the four theorems at the end instantiate them at the kernels' shapes.
-/
import proofs.«123991_j42245298323680_2_alg».proof.Proof.Gen.KernelIdeal.Frame
import proofs.«123991_j42245298323680_2_alg».proof.Proof.Spec
import proofs.«123991_j42245298323680_2_alg».proof.Proof.LibPlainDotFormats
import proofs.«123991_j42245298323680_2_alg».proof.Proof.LibRowsDot
import proofs.«123991_j42245298323680_2_alg».proof.Proof.LibColRowDot
import proofs.«123991_j42245298323680_2_alg».proof.Proof.LibRowLayout
import proofs.«123991_j42245298323680_2_alg».proof.Proof.LibTileOps

noncomputable section

namespace Cert.Net.Body

open Idealize.ShloMosaic Idealize.ShloMosaic.ValueIdx Cert.LibTileOps Cert.KernelIdeal Cert.KernelIdeal.Gen
open scoped BigOperators

variable {A K B N R : ℕ}

/-! ## The pieces, at the array level -/

/-- The offsets of a whole-buffer access, both zero. -/
theorem hz : (![0, 0] : Fin 2 → Nat) = fun _ => 0 := by
  funext a; match a with | ⟨0, _⟩ => rfl | ⟨1, _⟩ => rfl

/-- A matrix-unit product of plain dimension numbers into the zero array is the matrix product. -/
theorem matmul_zero_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    matmul D prec x w (constant (F := Ideal) ⟨2, ![A, B]⟩ .f32 0x00000000#32) = matProd x w := by
  funext i
  obtain ⟨p, c, rfl⟩ : ∃ (p : Fin A) (c : Fin B), i = ix2 p c := ⟨i 0, i 1, eq_ix2 i⟩
  exact h.matmul_zero_apply prec x w p c

/-- Adding a one-row array spread down the rows adds it to every row. -/
theorem addf_bcast_eq_addRow (y : FVec Ideal ⟨2, ![A, B]⟩ .f32) (r : FVec Ideal ⟨2, ![1, B]⟩ .f32)
    (h : (⟨2, ![1, B]⟩ : Shape).Broadcasts ⟨2, ![A, B]⟩) :
    addf y (broadcastTo ⟨2, ![A, B]⟩ r h) = addRow y r := by
  funext i
  obtain ⟨p, q, rfl⟩ : ∃ (p : Fin A) (q : Fin B), i = ix2 p q := ⟨i 0, i 1, eq_ix2 i⟩
  rw [addRow_apply, addf_apply, Cert.LibRowLayout.broadcastTo_1b_ab_apply]

/-- The entrywise hyperbolic tangent of an array. -/
theorem tanh_eq_tanhAll (v : FVec Ideal ⟨2, ![A, B]⟩ .f32) : tanh v = tanhAll v := rfl

/-- One linear layer as the kernels spell it: the product into the zero array, plus the bias row spread down the rows. -/
theorem linear_eq {D : DotDims ⟨2, ![A, K]⟩ ⟨2, ![K, B]⟩ ⟨2, ![A, B]⟩} (h : Cert.LibPlainDot.Plain D)
    (x : FVec Ideal ⟨2, ![A, K]⟩ .f32) (w : FVec Ideal ⟨2, ![K, B]⟩ .f32) (r : FVec Ideal ⟨2, ![1, B]⟩ .f32)
    (hb : (⟨2, ![1, B]⟩ : Shape).Broadcasts ⟨2, ![A, B]⟩) :
    addf (matmul D none x w (constant (F := Ideal) ⟨2, ![A, B]⟩ .f32 0x00000000#32)) (broadcastTo ⟨2, ![A, B]⟩ r hb)
      = linear x w r := by
  rw [matmul_zero_eq_matProd h, addf_bcast_eq_addRow]
  rfl

/-- A one-row array spread down R rows is the row repeated. -/
theorem broadcastTo_eq_repeatRow (r : FVec Ideal ⟨2, ![1, N]⟩ .f32) (h : (⟨2, ![1, N]⟩ : Shape).Broadcasts ⟨2, ![R, N]⟩) :
    broadcastTo ⟨2, ![R, N]⟩ r h = (repeatRow r : FVec Ideal ⟨2, ![R, N]⟩ .f32) := by
  funext i
  obtain ⟨u, j, rfl⟩ : ∃ (u : Fin R) (j : Fin N), i = ix2 u j := ⟨i 0, i 1, eq_ix2 i⟩
  rw [repeatRow_apply, Cert.LibRowLayout.broadcastTo_1b_ab_apply]

/-- A one-entry array spread along a row reads its entry everywhere. -/
theorem broadcastTo_11_1n_apply {α : Type} (v : (⟨2, ![1, 1]⟩ : Shape).Idx → α)
    (h : (⟨2, ![1, 1]⟩ : Shape).Broadcasts ⟨2, ![1, N]⟩) (u : Fin 1) (j : Fin N) :
    broadcastTo ⟨2, ![1, N]⟩ v h (ix2 u j) = v (ix2 (0 : Fin 1) (0 : Fin 1)) := by
  refine broadcastTo_apply v h (ix2 u j) (ix2 (0 : Fin 1) (0 : Fin 1)) fun ax => ?_
  match ax with
  | ⟨0, _⟩ => rfl
  | ⟨1, _⟩ => rfl

/-- The mean row as the kernel spells it: the coordinates against the one-column weights, contracted over the
    weights' rows, into the zero array, plus the one-entry bias spread along the row. -/
theorem meanRow_eq {D : DotDims ⟨2, ![K, 1]⟩ ⟨2, ![N, K]⟩ ⟨2, ![1, N]⟩} (h : Cert.LibColRowDot.ColRow D)
    (wm : FVec Ideal ⟨2, ![K, 1]⟩ .f32) (coords : FVec Ideal ⟨2, ![N, K]⟩ .f32) (bm : FVec Ideal ⟨2, ![1, 1]⟩ .f32)
    (hb : (⟨2, ![1, 1]⟩ : Shape).Broadcasts ⟨2, ![1, N]⟩) :
    addf (matmul D none wm coords (constant (F := Ideal) ⟨2, ![1, N]⟩ .f32 0x00000000#32)) (broadcastTo ⟨2, ![1, N]⟩ bm hb)
      = meanRow wm coords bm := by
  funext i
  obtain ⟨u, j, rfl⟩ : ∃ (u : Fin 1) (j : Fin N), i = ix2 u j := ⟨i 0, i 1, eq_ix2 i⟩
  rw [meanRow_apply, addf_apply, broadcastTo_11_1n_apply]
  obtain rfl : u = 0 := Subsingleton.elim _ _
  exact congrArg (· + bm (ix2 (0 : Fin 1) (0 : Fin 1))) (h.matmul_zero_apply none wm coords (0 : Fin 1) j)

/-- Rows against rows on the matrix unit, the operands first rounded to the narrow format (which changes no ideal
    value), into the zero array. -/
theorem matmul_rows_truncf_eq_rowsProd {D : DotDims ⟨2, ![A, K]⟩ ⟨2, ![B, K]⟩ ⟨2, ![A, B]⟩} (h : Cert.LibRowsDot.Rows D)
    (x : FVec Ideal ⟨2, ![A, K]⟩ .f32) (y : FVec Ideal ⟨2, ![B, K]⟩ .f32) (hbits : FTy.bits .bf16 < FTy.bits .f32) :
    matmul D none (truncf .bf16 x hbits) (truncf .bf16 y hbits) (constant (F := Ideal) ⟨2, ![A, B]⟩ .f32 0x00000000#32)
      = rowsProd x y := by
  funext i
  obtain ⟨p, c, rfl⟩ : ∃ (p : Fin A) (c : Fin B), i = ix2 p c := ⟨i 0, i 1, eq_ix2 i⟩
  exact h.matmul_zero_apply none (truncf .bf16 x hbits) (truncf .bf16 y hbits) p c

/-- A load of the top row of an R-row buffer, as a one-row array, read at an entry. -/
theorem ld_top_row_apply [NeZero R] {Val : EltTy → Type} {e : EltTy} (x : (⟨2, ![R, B]⟩ : Shape).Idx → Val e)
    (inb : ∀ a, (![0, 0] : Fin 2 → Nat) a + (⟨2, ![1, B]⟩ : Shape).size a ≤ (⟨2, ![R, B]⟩ : Shape).size a)
    (u : Fin 1) (q : Fin B) :
    View.ld (Val := Val) (e' := e) x (Rect.unit (s := ⟨2, ![R, B]⟩) ![0, 0] (⟨2, ![1, B]⟩ : Shape).size inb) (ix2 u q)
      = x (ix2 (0 : Fin R) q) := by
  show x _ = x _
  refine congrArg x (funext fun a => Fin.ext ?_)
  have hu : u.val = 0 := by omega
  match a with
  | ⟨0, _⟩ => show 0 + 1 * u.val = ((0 : Fin R) : ℕ); rw [hu]; simp
  | ⟨1, _⟩ => show 0 + 1 * q.val = q.val; omega

/-- The pairing as the kernel spells it: rows against rows plus the loaded top row of the bias buffer spread down
    the rows. -/
theorem pairing_eq [NeZero R] (x : FVec Ideal ⟨2, ![A, K]⟩ .f32) (y : FVec Ideal ⟨2, ![B, K]⟩ .f32)
    (r : Vec Ideal ⟨2, ![R, B]⟩ .f32)
    (inb : ∀ a, (![0, 0] : Fin 2 → Nat) a + (⟨2, ![1, B]⟩ : Shape).size a ≤ (⟨2, ![R, B]⟩ : Shape).size a)
    (hb : (⟨2, ![1, B]⟩ : Shape).Broadcasts ⟨2, ![A, B]⟩) :
    addf (rowsProd x y)
        (broadcastTo ⟨2, ![A, B]⟩
          (View.ld (Val := Elt Ideal) (e' := .f32) r (Rect.unit (s := ⟨2, ![R, B]⟩) ![0, 0] (⟨2, ![1, B]⟩ : Shape).size inb)) hb)
      = pairing x y r := by
  funext i
  obtain ⟨p, c, rfl⟩ : ∃ (p : Fin A) (c : Fin B), i = ix2 p c := ⟨i 0, i 1, eq_ix2 i⟩
  rw [pairing_apply, addf_apply, rowsProd_apply, Cert.LibRowLayout.broadcastTo_1b_ab_apply, ld_top_row_apply]

/-! ## The three kernels' bodies -/

/-- The branch kernel's body leaves the branch network of its input blocks. -/
theorem body0 (x0 : Vec Ideal S4096x128 .f32) (x1 : Vec Ideal S128x32 .f32) (x2 : Vec Ideal S1x32 .f32)
    (x3 : Vec Ideal S32x32 .f32) (x4 : Vec Ideal S1x32 .f32) (x5 : Vec Ideal S32x32 .f32) (x6 : Vec Ideal S1x32 .f32)
    (x7 : Vec Ideal S32x32 .f32) (x8 : Vec Ideal S1x32 .f32) (x9 : Vec Ideal S32x256 .f32) (x10 : Vec Ideal S1x256 .f32) :
    out0_11 (F := Ideal) x0 x1 x2 x3 x4 x5 x6 x7 x8 x9 x10 = Cert.Net.branch x0 x1 x2 x3 x4 x5 x6 x7 x8 x9 x10 := by
  have P1 : Cert.LibPlainDot.Plain dot_S4096x128_S128x32_S4096x32_1_0_0_1_n_n := ⟨rfl, rfl, rfl, rfl, rfl, rfl⟩
  have P2 : Cert.LibPlainDot.Plain dot_S4096x32_S32x32_S4096x32_1_0_0_1_n_n := ⟨rfl, rfl, rfl, rfl, rfl, rfl⟩
  have P3 : Cert.LibPlainDot.Plain dot_S4096x32_S32x256_S4096x256_1_0_0_1_n_n := ⟨rfl, rfl, rfl, rfl, rfl, rfl⟩
  unfold out0_11
  rw [View.canon_unit_zero hz]
  simp only [View.ld_unit_zero (S := S4096x128) hz, View.ld_unit_zero (S := S128x32) hz, View.ld_unit_zero (S := S1x32) hz,
    View.ld_unit_zero (S := S32x32) hz, View.ld_unit_zero (S := S32x256) hz, View.ld_unit_zero (S := S1x256) hz]
  unfold k0_pay1 k0_pay2 branch hidden
  simp only [shapeCast_self, linear_eq P1, linear_eq P2, linear_eq P3, tanh_eq_tanhAll]

/-- The trunk kernel's first output: the linear map of the coordinates. -/
theorem body1_modes (x0 : Vec Ideal S8192x2 .f32) (x1 : Vec Ideal S2x256 .f32) (x2 : Vec Ideal S1x256 .f32)
    (x3 : Vec Ideal S2x1 .f32) (x4 : Vec Ideal S1x1 .f32) :
    out1_5 (F := Ideal) x0 x1 x2 x3 x4 = Cert.Net.linear x0 x1 x2 := by
  have P : Cert.LibPlainDot.Plain dot_S8192x2_S2x256_S8192x256_1_0_0_1_n_n := ⟨rfl, rfl, rfl, rfl, rfl, rfl⟩
  unfold out1_5
  rw [View.canon_unit_zero hz]
  simp only [View.ld_unit_zero (S := S8192x2) hz, View.ld_unit_zero (S := S2x256) hz, View.ld_unit_zero (S := S1x256) hz]
  unfold k1_pay1
  simp only [shapeCast_self, linear_eq P]

/-- The trunk kernel's second output: the mean row, repeated down the eight rows of the buffer. -/
theorem body1_mean (x0 : Vec Ideal S8192x2 .f32) (x1 : Vec Ideal S2x256 .f32) (x2 : Vec Ideal S1x256 .f32)
    (x3 : Vec Ideal S2x1 .f32) (x4 : Vec Ideal S1x1 .f32) :
    out1_6 (F := Ideal) x0 x1 x2 x3 x4 = (Cert.Net.repeatRow (Cert.Net.meanRow x3 x0 x4) : FVec Ideal S8x8192 .f32) := by
  have P : Cert.LibColRowDot.ColRow dot_S2x1_S8192x2_S1x8192_0_1_1_0_n_n := ⟨rfl, rfl, rfl, rfl, rfl, rfl⟩
  unfold out1_6
  rw [View.canon_unit_zero hz]
  simp only [View.ld_unit_zero (S := S8192x2) hz, View.ld_unit_zero (S := S2x1) hz, View.ld_unit_zero (S := S1x1) hz]
  unfold k1_pay2
  simp only [shapeCast_self, meanRow_eq P, broadcastTo_eq_repeatRow]

/-- The pairing kernel's body: rows of the coefficients against rows of the modes, plus the top row of the bias
    buffer. -/
theorem body2 (x0 x1 : Vec Ideal S2048x256 .f32) (x2 : Vec Ideal S8x2048 .f32) :
    out2_3 (F := Ideal) x0 x1 x2 = Cert.Net.pairing x0 x1 x2 := by
  have P : Cert.LibRowsDot.Rows dot_S2048x256_S2048x256_S2048x2048_1_1_0_0_n_n := ⟨rfl, rfl, rfl, rfl, rfl, rfl⟩
  unfold out2_3
  rw [View.canon_unit_zero hz]
  simp only [View.ld_unit_zero (S := S2048x256) hz]
  unfold k2_pay1
  simp only [shapeCast_self, matmul_rows_truncf_eq_rowsProd P]
  exact pairing_eq x0 x1 x2 inb_S8x2048_S1x2048_0_0 broadcasts_S1x2048_S2048x2048

end Cert.Net.Body

end
-- ==== Proof.KernelRegions.lean ====
/-
  The three tiled regions of the idealized kernel program, each read as a function of the arrays it finds.

  The first two regions have one grid point and every window's block is its whole array, so what the body leaves in an
  output buffer IS the output array afterwards, a function of the whole input arrays.  The third region writes the
  4096 × 8192 output in 2 × 4 blocks of 2048 × 2048; the block at point (i, j) pairs rows 2048·i … of the coefficients
  with rows 2048·j … of the modes and adds columns 2048·j … of the bias array's top row, so every block is the
  restriction of ONE pairing of the whole arrays, and the blocks tile the output.
-/
import proofs.«123991_j42245298323680_2_alg».proof.Proof.Gen.KernelIdeal.Frame
import proofs.«123991_j42245298323680_2_alg».proof.Proof.Spec
import Idealize.ShloMosaic.Lib.Pipeline.Value

set_option maxRecDepth 16384

noncomputable section

namespace Cert.Net.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.Net

variable {F : FTy → Type} [FloatOps F]
variable (V : (c : Dev nD) → (b : Ref sig .tc) → Buf (Elt F) ((c : Thread nD τ).loc b))

/-! ## The first region: one grid point, every block its whole array -/

theorem idx0_0 : ∀ a, win0_0.index t0_0 a = 0 := by decide
theorem iblk0_0_eq (c : Dev nD) : iblk0 V c 0 t0_0 = V c main_arg0 := by
  funext j
  show V c main_arg0 (((cfg0.win 0).blk t0_0).view.emb j) = V c main_arg0 j
  refine congrArg (V c main_arg0) ?_
  funext a; apply Fin.ext
  exact Window.rect_emb_val_of_index_zero win0_0 t0_0 a (idx0_0 a) j
theorem idx0_1 : ∀ a, win0_1.index t0_0 a = 0 := by decide
theorem iblk0_1_eq (c : Dev nD) : iblk0 V c 1 t0_0 = V c main_arg2 := by
  funext j
  show V c main_arg2 (((cfg0.win 1).blk t0_0).view.emb j) = V c main_arg2 j
  refine congrArg (V c main_arg2) ?_
  funext a; apply Fin.ext
  exact Window.rect_emb_val_of_index_zero win0_1 t0_0 a (idx0_1 a) j
theorem idx0_2 : ∀ a, win0_2.index t0_0 a = 0 := by decide
theorem iblk0_2_eq (c : Dev nD) : iblk0 V c 2 t0_0 = V c main_v0 := by
  funext j
  show V c main_v0 (((cfg0.win 2).blk t0_0).view.emb j) = V c main_v0 j
  refine congrArg (V c main_v0) ?_
  funext a; apply Fin.ext
  exact Window.rect_emb_val_of_index_zero win0_2 t0_0 a (idx0_2 a) j
theorem idx0_3 : ∀ a, win0_3.index t0_0 a = 0 := by decide
theorem iblk0_3_eq (c : Dev nD) : iblk0 V c 3 t0_0 = V c main_arg4 := by
  funext j
  show V c main_arg4 (((cfg0.win 3).blk t0_0).view.emb j) = V c main_arg4 j
  refine congrArg (V c main_arg4) ?_
  funext a; apply Fin.ext
  exact Window.rect_emb_val_of_index_zero win0_3 t0_0 a (idx0_3 a) j
theorem idx0_4 : ∀ a, win0_4.index t0_0 a = 0 := by decide
theorem iblk0_4_eq (c : Dev nD) : iblk0 V c 4 t0_0 = V c main_v1 := by
  funext j
  show V c main_v1 (((cfg0.win 4).blk t0_0).view.emb j) = V c main_v1 j
  refine congrArg (V c main_v1) ?_
  funext a; apply Fin.ext
  exact Window.rect_emb_val_of_index_zero win0_4 t0_0 a (idx0_4 a) j
theorem idx0_5 : ∀ a, win0_5.index t0_0 a = 0 := by decide
theorem iblk0_5_eq (c : Dev nD) : iblk0 V c 5 t0_0 = V c main_arg6 := by
  funext j
  show V c main_arg6 (((cfg0.win 5).blk t0_0).view.emb j) = V c main_arg6 j
  refine congrArg (V c main_arg6) ?_
  funext a; apply Fin.ext
  exact Window.rect_emb_val_of_index_zero win0_5 t0_0 a (idx0_5 a) j
theorem idx0_6 : ∀ a, win0_6.index t0_0 a = 0 := by decide
theorem iblk0_6_eq (c : Dev nD) : iblk0 V c 6 t0_0 = V c main_v2 := by
  funext j
  show V c main_v2 (((cfg0.win 6).blk t0_0).view.emb j) = V c main_v2 j
  refine congrArg (V c main_v2) ?_
  funext a; apply Fin.ext
  exact Window.rect_emb_val_of_index_zero win0_6 t0_0 a (idx0_6 a) j
theorem idx0_7 : ∀ a, win0_7.index t0_0 a = 0 := by decide
theorem iblk0_7_eq (c : Dev nD) : iblk0 V c 7 t0_0 = V c main_arg8 := by
  funext j
  show V c main_arg8 (((cfg0.win 7).blk t0_0).view.emb j) = V c main_arg8 j
  refine congrArg (V c main_arg8) ?_
  funext a; apply Fin.ext
  exact Window.rect_emb_val_of_index_zero win0_7 t0_0 a (idx0_7 a) j
theorem idx0_8 : ∀ a, win0_8.index t0_0 a = 0 := by decide
theorem iblk0_8_eq (c : Dev nD) : iblk0 V c 8 t0_0 = V c main_v3 := by
  funext j
  show V c main_v3 (((cfg0.win 8).blk t0_0).view.emb j) = V c main_v3 j
  refine congrArg (V c main_v3) ?_
  funext a; apply Fin.ext
  exact Window.rect_emb_val_of_index_zero win0_8 t0_0 a (idx0_8 a) j
theorem idx0_9 : ∀ a, win0_9.index t0_0 a = 0 := by decide
theorem iblk0_9_eq (c : Dev nD) : iblk0 V c 9 t0_0 = V c main_arg10 := by
  funext j
  show V c main_arg10 (((cfg0.win 9).blk t0_0).view.emb j) = V c main_arg10 j
  refine congrArg (V c main_arg10) ?_
  funext a; apply Fin.ext
  exact Window.rect_emb_val_of_index_zero win0_9 t0_0 a (idx0_9 a) j
theorem idx0_10 : ∀ a, win0_10.index t0_0 a = 0 := by decide
theorem iblk0_10_eq (c : Dev nD) : iblk0 V c 10 t0_0 = V c main_v4 := by
  funext j
  show V c main_v4 (((cfg0.win 10).blk t0_0).view.emb j) = V c main_v4 j
  refine congrArg (V c main_v4) ?_
  funext a; apply Fin.ext
  exact Window.rect_emb_val_of_index_zero win0_10 t0_0 a (idx0_10 a) j
theorem idx0_11 : ∀ a, win0_11.index t0_0 a = 0 := by decide
/-- The one block of output window 11 is its whole array: what is written back is the buffer's contents, and it is
    read back unchanged. -/
theorem cut_eq_read0_11 (X : Vec F S4096x256 .f32) :
    (cfg0.win 11).cut (grid0.coords t0_0) X = ((cfg0.win 11).blk t0_0).view.read (Elt F) X := by
  funext j
  show X _ = X (((cfg0.win 11).blk t0_0).view.emb j)
  refine congrArg X ?_
  funext a; apply Fin.ext
  exact (Window.rect_emb_val_of_index_zero win0_11 t0_0 a (idx0_11 a) j).symm
theorem covers0_11 (c : Dev nD) (i : (View.loc (c.tc : Thread nD τ) (cfg0.win 11).arr.view).2.ty.Idx) :
    i ∈ ((cfg0.win 11).blk t0_0).view.set := by
  show i ∈ ((View.whole main_v7).slice (win0_11.rect t0_0)).set
  rw [View.set_slice_whole, Rect.mem_set_unit]
  intro a
  match a with
  | ⟨0, _⟩ =>
    have h0 := idx0_11 0
    have hi : (i 0).val < 4096 := (i 0).isLt
    show win0_11.index t0_0 (0 : Fin 2) * 4096 ≤ (i 0).val ∧ (i 0).val < win0_11.index t0_0 (0 : Fin 2) * 4096 + 4096
    omega
  | ⟨1, _⟩ =>
    have h1 := idx0_11 1
    have hi : (i 1).val < 256 := (i 1).isLt
    show win0_11.index t0_0 (1 : Fin 2) * 256 ≤ (i 1).val ∧ (i 1).val < win0_11.index t0_0 (1 : Fin 2) * 256 + 256
    omega

/-- After the first region its output array holds the body's result of the whole input arrays. -/
theorem region0_out (c : Dev nD) : (dat0 V c).arrAt 11 cfg0.N
    = out0_11 (V c main_arg0) (V c main_arg2) (V c main_v0) (V c main_arg4) (V c main_v1) (V c main_arg6) (V c main_v2)
        (V c main_arg8) (V c main_v3) (V c main_arg10) (V c main_v4) := by
  refine (dat0 V c).arrAt_eq_of_cover 11 _ (fun t _ => ?_) (fun i => ⟨t0_0, flush0_11 t0_0, covers0_11 c i⟩)
  obtain rfl := fin_N0 t
  show (cfg0.win 11).cut (grid0.coords t0_0) ((dat0 V c).after 11 t0_0) = _
  rw [after0_11, iblk0_0_eq, iblk0_1_eq, iblk0_2_eq, iblk0_3_eq, iblk0_4_eq, iblk0_5_eq, iblk0_6_eq, iblk0_7_eq, iblk0_8_eq,
    iblk0_9_eq, iblk0_10_eq]
  exact cut_eq_read0_11 _

/-! ## The second region: one grid point, every block its whole array -/

theorem idx1_0 : ∀ a, win1_0.index t1_0 a = 0 := by decide
theorem iblk1_0_eq (c : Dev nD) : iblk1 V c 0 t1_0 = V c main_arg1 := by
  funext j
  show V c main_arg1 (((cfg1.win 0).blk t1_0).view.emb j) = V c main_arg1 j
  refine congrArg (V c main_arg1) ?_
  funext a; apply Fin.ext
  exact Window.rect_emb_val_of_index_zero win1_0 t1_0 a (idx1_0 a) j
theorem idx1_1 : ∀ a, win1_1.index t1_0 a = 0 := by decide
theorem iblk1_1_eq (c : Dev nD) : iblk1 V c 1 t1_0 = V c main_arg12 := by
  funext j
  show V c main_arg12 (((cfg1.win 1).blk t1_0).view.emb j) = V c main_arg12 j
  refine congrArg (V c main_arg12) ?_
  funext a; apply Fin.ext
  exact Window.rect_emb_val_of_index_zero win1_1 t1_0 a (idx1_1 a) j
theorem idx1_2 : ∀ a, win1_2.index t1_0 a = 0 := by decide
theorem iblk1_2_eq (c : Dev nD) : iblk1 V c 2 t1_0 = V c main_v5 := by
  funext j
  show V c main_v5 (((cfg1.win 2).blk t1_0).view.emb j) = V c main_v5 j
  refine congrArg (V c main_v5) ?_
  funext a; apply Fin.ext
  exact Window.rect_emb_val_of_index_zero win1_2 t1_0 a (idx1_2 a) j
theorem idx1_3 : ∀ a, win1_3.index t1_0 a = 0 := by decide
theorem iblk1_3_eq (c : Dev nD) : iblk1 V c 3 t1_0 = V c main_arg14 := by
  funext j
  show V c main_arg14 (((cfg1.win 3).blk t1_0).view.emb j) = V c main_arg14 j
  refine congrArg (V c main_arg14) ?_
  funext a; apply Fin.ext
  exact Window.rect_emb_val_of_index_zero win1_3 t1_0 a (idx1_3 a) j
theorem idx1_4 : ∀ a, win1_4.index t1_0 a = 0 := by decide
theorem iblk1_4_eq (c : Dev nD) : iblk1 V c 4 t1_0 = V c main_v6 := by
  funext j
  show V c main_v6 (((cfg1.win 4).blk t1_0).view.emb j) = V c main_v6 j
  refine congrArg (V c main_v6) ?_
  funext a; apply Fin.ext
  exact Window.rect_emb_val_of_index_zero win1_4 t1_0 a (idx1_4 a) j
theorem idx1_5 : ∀ a, win1_5.index t1_0 a = 0 := by decide
/-- The one block of output window 5 is its whole array: what is written back is the buffer's contents, and it is
    read back unchanged. -/
theorem cut_eq_read1_5 (X : Vec F S8192x256 .f32) :
    (cfg1.win 5).cut (grid1.coords t1_0) X = ((cfg1.win 5).blk t1_0).view.read (Elt F) X := by
  funext j
  show X _ = X (((cfg1.win 5).blk t1_0).view.emb j)
  refine congrArg X ?_
  funext a; apply Fin.ext
  exact (Window.rect_emb_val_of_index_zero win1_5 t1_0 a (idx1_5 a) j).symm
theorem covers1_5 (c : Dev nD) (i : (View.loc (c.tc : Thread nD τ) (cfg1.win 5).arr.view).2.ty.Idx) :
    i ∈ ((cfg1.win 5).blk t1_0).view.set := by
  show i ∈ ((View.whole main_v8_0).slice (win1_5.rect t1_0)).set
  rw [View.set_slice_whole, Rect.mem_set_unit]
  intro a
  match a with
  | ⟨0, _⟩ =>
    have h0 := idx1_5 0
    have hi : (i 0).val < 8192 := (i 0).isLt
    show win1_5.index t1_0 (0 : Fin 2) * 8192 ≤ (i 0).val ∧ (i 0).val < win1_5.index t1_0 (0 : Fin 2) * 8192 + 8192
    omega
  | ⟨1, _⟩ =>
    have h1 := idx1_5 1
    have hi : (i 1).val < 256 := (i 1).isLt
    show win1_5.index t1_0 (1 : Fin 2) * 256 ≤ (i 1).val ∧ (i 1).val < win1_5.index t1_0 (1 : Fin 2) * 256 + 256
    omega
theorem idx1_6 : ∀ a, win1_6.index t1_0 a = 0 := by decide
/-- The one block of output window 6 is its whole array: what is written back is the buffer's contents, and it is
    read back unchanged. -/
theorem cut_eq_read1_6 (X : Vec F S8x8192 .f32) :
    (cfg1.win 6).cut (grid1.coords t1_0) X = ((cfg1.win 6).blk t1_0).view.read (Elt F) X := by
  funext j
  show X _ = X (((cfg1.win 6).blk t1_0).view.emb j)
  refine congrArg X ?_
  funext a; apply Fin.ext
  exact (Window.rect_emb_val_of_index_zero win1_6 t1_0 a (idx1_6 a) j).symm
theorem covers1_6 (c : Dev nD) (i : (View.loc (c.tc : Thread nD τ) (cfg1.win 6).arr.view).2.ty.Idx) :
    i ∈ ((cfg1.win 6).blk t1_0).view.set := by
  show i ∈ ((View.whole main_v8_1).slice (win1_6.rect t1_0)).set
  rw [View.set_slice_whole, Rect.mem_set_unit]
  intro a
  match a with
  | ⟨0, _⟩ =>
    have h0 := idx1_6 0
    have hi : (i 0).val < 8 := (i 0).isLt
    show win1_6.index t1_0 (0 : Fin 2) * 8 ≤ (i 0).val ∧ (i 0).val < win1_6.index t1_0 (0 : Fin 2) * 8 + 8
    omega
  | ⟨1, _⟩ =>
    have h1 := idx1_6 1
    have hi : (i 1).val < 8192 := (i 1).isLt
    show win1_6.index t1_0 (1 : Fin 2) * 8192 ≤ (i 1).val ∧ (i 1).val < win1_6.index t1_0 (1 : Fin 2) * 8192 + 8192
    omega

/-- After the second region its two output arrays hold the body's results of the whole input arrays. -/
theorem region1_modes (c : Dev nD) : (dat1 V c).arrAt 5 cfg1.N
    = out1_5 (V c main_arg1) (V c main_arg12) (V c main_v5) (V c main_arg14) (V c main_v6) := by
  refine (dat1 V c).arrAt_eq_of_cover 5 _ (fun t _ => ?_) (fun i => ⟨t1_0, flush1_5 t1_0, covers1_5 c i⟩)
  obtain rfl := fin_N1 t
  show (cfg1.win 5).cut (grid1.coords t1_0) ((dat1 V c).after 5 t1_0) = _
  rw [after1_5, iblk1_0_eq, iblk1_1_eq, iblk1_2_eq, iblk1_3_eq, iblk1_4_eq]
  exact cut_eq_read1_5 _
theorem region1_mean (c : Dev nD) : (dat1 V c).arrAt 6 cfg1.N
    = out1_6 (V c main_arg1) (V c main_arg12) (V c main_v5) (V c main_arg14) (V c main_v6) := by
  refine (dat1 V c).arrAt_eq_of_cover 6 _ (fun t _ => ?_) (fun i => ⟨t1_0, flush1_6 t1_0, covers1_6 c i⟩)
  obtain rfl := fin_N1 t
  show (cfg1.win 6).cut (grid1.coords t1_0) ((dat1 V c).after 6 t1_0) = _
  rw [after1_6, iblk1_0_eq, iblk1_1_eq, iblk1_2_eq, iblk1_3_eq, iblk1_4_eq]
  exact cut_eq_read1_6 _

/-! ## The third region: a 2 × 4 grid of 2048 × 2048 output blocks -/

/-- The printed index maps, decided over the eight grid points: the coefficient block moves with the output block's
    row, the mode and bias blocks with its column, and the output's block indices stay in the 2 × 4 box. -/
theorem idx_facts2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 1 ∧ win2_3.index t (1 : Fin 2) ≤ 3 :=
  (by decide +kernel : ∀ t : Fin grid2.N, _)

/-- Every block of the 2 × 4 box is some point's. -/
theorem idx_onto2 : ∀ (q0 : Fin 2) (q1 : Fin 4), ∃ t : Fin cfg2.N, win2_3.index t = ![q0.val, q1.val] :=
  (by decide +kernel : ∀ (q0 : Fin 2) (q1 : Fin 4), ∃ t : Fin grid2.N, win2_3.index t = ![q0.val, q1.val])

/-- Two pairings agree at two entries when the rows and the bias entry they read agree. -/
theorem pairing_eq_of {A K B R A' B' R' : ℕ} [NeZero R] [NeZero R']
    (x : FVec Ideal ⟨2, ![A, K]⟩ .f32) (y : FVec Ideal ⟨2, ![B, K]⟩ .f32) (r : FVec Ideal ⟨2, ![R, B]⟩ .f32)
    (x' : FVec Ideal ⟨2, ![A', K]⟩ .f32) (y' : FVec Ideal ⟨2, ![B', K]⟩ .f32) (r' : FVec Ideal ⟨2, ![R', B']⟩ .f32)
    (i : (⟨2, ![A, B]⟩ : Shape).Idx) (i' : (⟨2, ![A', B']⟩ : Shape).Idx)
    (hx : ∀ k : Fin K, x (ix2 (i 0) k) = x' (ix2 (i' 0) k)) (hy : ∀ k : Fin K, y (ix2 (i 1) k) = y' (ix2 (i' 1) k))
    (hr : r (ix2 (0 : Fin R) (i 1)) = r' (ix2 (0 : Fin R') (i' 1))) :
    pairing x y r i = pairing x' y' r' i' := by
  unfold pairing rowsProd
  rw [hr]
  exact congrArg (· + _) (Finset.sum_congr rfl fun k _ => by rw [hx k, hy k])

variable (W : (c : Dev nD) → (b : Ref sig .tc) → Buf (Elt Ideal) ((c : Thread nD τ).loc b))

set_option maxHeartbeats 400000 in
/-- What a grid point writes back is its block of the pairing of the three WHOLE input arrays: the block's entry
    (p, q) reads row p of the point's coefficient block, row q of its mode block and entry q of the top row of its bias
    block, which are the arrays' rows and entry at the block's offsets. -/
theorem flushed2_eq (H2 : ∀ (x0 x1 : Vec Ideal S2048x256 .f32) (x2 : Vec Ideal S8x2048 .f32), out2_3 (F := Ideal) x0 x1 x2 = pairing x0 x1 x2)
    (c : Dev nD) (t : Fin cfg2.N) :
    (dat2 W c).flushed 3 t = ((cfg2.win 3).blk t).view.read (Elt Ideal)
      (pairing (A := 4096) (K := 256) (B := 8192) (R := 8) (W c main_v7) (W c main_v8_0) (W c main_v8_1)) := by
  show (cfg2.win 3).cut (grid2.coords t) ((dat2 W c).after 3 t) = _
  rw [after2_3, H2]
  obtain ⟨e0, e1, e2, e3, e4, e5, e6, e7⟩ := idx_facts2 t
  funext j
  show pairing (iblk2 W c 0 t) (iblk2 W c 1 t) (iblk2 W c 2 t) ((cfg2.win 3).xinj (grid2.coords t) j)
    = pairing (A := 4096) (K := 256) (B := 8192) (R := 8) (W c main_v7) (W c main_v8_0) (W c main_v8_1) (((cfg2.win 3).blk t).view.emb j)
  refine pairing_eq_of _ _ _ _ _ _ _ _ (fun k => ?_) (fun k => ?_) ?_
  · show W c main_v7 (((cfg2.win 0).blk t).view.emb (ix2 ((cfg2.win 3).xinj (grid2.coords t) j 0) k)) = _
    refine congrArg (W c main_v7) ?_
    funext a; apply Fin.ext
    match a with
    | ⟨0, _⟩ =>
      show win2_0.index t (0 : Fin 2) * 2048 + 1 * (j 0).val = win2_3.index t (0 : Fin 2) * 2048 + 1 * (j 0).val
      omega
    | ⟨1, _⟩ =>
      show win2_0.index t (1 : Fin 2) * 256 + 1 * k.val = k.val
      omega
  · show W c main_v8_0 (((cfg2.win 1).blk t).view.emb (ix2 ((cfg2.win 3).xinj (grid2.coords t) j 1) k)) = _
    refine congrArg (W c main_v8_0) ?_
    funext a; apply Fin.ext
    match a with
    | ⟨0, _⟩ =>
      show win2_1.index t (0 : Fin 2) * 2048 + 1 * (j 1).val = win2_3.index t (1 : Fin 2) * 2048 + 1 * (j 1).val
      omega
    | ⟨1, _⟩ =>
      show win2_1.index t (1 : Fin 2) * 256 + 1 * k.val = k.val
      omega
  · show W c main_v8_1 (((cfg2.win 2).blk t).view.emb (ix2 (0 : Fin 8) ((cfg2.win 3).xinj (grid2.coords t) j 1))) = _
    refine congrArg (W c main_v8_1) ?_
    funext a; apply Fin.ext
    match a with
    | ⟨0, _⟩ =>
      show win2_2.index t (0 : Fin 2) * 8 + 1 * 0 = 0
      omega
    | ⟨1, _⟩ =>
      show win2_2.index t (1 : Fin 2) * 2048 + 1 * (j 1).val = win2_3.index t (1 : Fin 2) * 2048 + 1 * (j 1).val
      omega

/-- An index of the output array is in point `t`'s block iff each coordinate is in the block's range on its axis. -/
theorem mem_blk2_3 (t : Fin cfg2.N) (i : S4096x8192.Idx) :
    i ∈ ((cfg2.win 3).blk t).view.set ↔ ∀ a : Fin 2, win2_3.index t a * S2048x2048.size a ≤ (i a).val
      ∧ (i a).val < win2_3.index t a * S2048x2048.size a + S2048x2048.size a := by
  show i ∈ ((View.whole main_v9).slice (win2_3.rect t)).set ↔ _
  rw [View.set_slice_whole, Rect.mem_set_unit]
  exact Iff.rfl

/-- The eight blocks tile the output array: entry (r, s) is in the block of the point with block index (r / 2048, s / 2048). -/
theorem covers2_3 (c : Dev nD) (i : (View.loc (c.tc : Thread nD τ) (cfg2.win 3).arr.view).2.ty.Idx) :
    ∃ t : Fin cfg2.N, (cfg2.win 3).flush t = true ∧ i ∈ ((cfg2.win 3).blk t).view.set := by
  have hi0 : (i 0).val < 4096 := (i 0).isLt
  have hi1 : (i 1).val < 8192 := (i 1).isLt
  obtain ⟨t, ht⟩ := idx_onto2 ⟨(i 0).val / 2048, by omega⟩ ⟨(i 1).val / 2048, by omega⟩
  have q0 : win2_3.index t (0 : Fin 2) = (i 0).val / 2048 := congrFun ht 0
  have q1 : win2_3.index t (1 : Fin 2) = (i 1).val / 2048 := congrFun ht 1
  refine ⟨t, flush2_3 t, (mem_blk2_3 t i).mpr fun a => ?_⟩
  match a with
  | ⟨0, _⟩ =>
    show win2_3.index t (0 : Fin 2) * 2048 ≤ (i 0).val ∧ (i 0).val < win2_3.index t (0 : Fin 2) * 2048 + 2048
    omega
  | ⟨1, _⟩ =>
    show win2_3.index t (1 : Fin 2) * 2048 ≤ (i 1).val ∧ (i 1).val < win2_3.index t (1 : Fin 2) * 2048 + 2048
    omega

/-- After the third region its output array is the pairing of its three input arrays as the region finds them. -/
theorem region2_out (H2 : ∀ (x0 x1 : Vec Ideal S2048x256 .f32) (x2 : Vec Ideal S8x2048 .f32), out2_3 (F := Ideal) x0 x1 x2 = pairing x0 x1 x2)
    (c : Dev nD) : (dat2 W c).arrAt 3 cfg2.N
      = pairing (A := 4096) (K := 256) (B := 8192) (R := 8) (W c main_v7) (W c main_v8_0) (W c main_v8_1) :=
  (dat2 W c).arrAt_eq_of_cover 3 _ (fun t _ => flushed2_eq W H2 c t) (covers2_3 c)

end Cert.Net.Regions

end
-- ==== Proof.KernelRun.lean ====
/-
  The idealized kernel program's run, read for its result.

  The program is three tiled regions between two stretches of host reshapes.  Its run ends with every buffer at the
  contents obtained by folding the stretches and the regions' write-backs over the launch memory; here that fold is
  read at the result buffer: the last reshape of the third region's output array, which is (block by block, the
  blocks tiling it) the pairing of the first region's output with the second region's two outputs, each of which is
  one whole-array block of its kernel's body applied to the argument arrays.
-/
import proofs.«123991_j42245298323680_2_alg».proof.Proof.Gen.KernelIdeal.Frame
import proofs.«123991_j42245298323680_2_alg».proof.Proof.Spec
import proofs.«123991_j42245298323680_2_alg».proof.Proof.KernelRegions
import Idealize.ShloMosaic.Lib.Pipeline.Value
import Idealize.ShloMosaic.Lib.StableHlo.Run

set_option maxRecDepth 16384

noncomputable section

namespace Cert.Net.Run

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyF

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    contents `W5` and the argument arrays as launched. -/
theorem run_result : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

/-! ## The host stretches read back -/

/-- The last stretch is one reshape: the result is the third region's output array, flattened. -/
theorem W5_result (c : Dev nD) : W5 m ρ c (Proc.devRef .tc main_v10)
    = shapeCast S33554432 (W4 m ρ c (Proc.devRef .tc main_v9)) shapeCasts_S4096x8192_S33554432 := by
  show StableHlo.after hostOps3 (W4 m ρ c) (Proc.devRef .tc main_v10) = _
  after_results; rfl

/-- The first stretch lays each bias vector out as a one-row array … -/
theorem V1_v0 (c : Dev nD) : V1 m ρ c main_v0 = shapeCast S1x32 (m ((c : Thread nD τ).loc main_arg3)) shapeCasts_S32_S1x32 := by
  show StableHlo.after hostOps0 (W0 m ρ c) (Proc.devRef .tc main_v0) = _
  after_results; rfl
theorem V1_v1 (c : Dev nD) : V1 m ρ c main_v1 = shapeCast S1x32 (m ((c : Thread nD τ).loc main_arg5)) shapeCasts_S32_S1x32 := by
  show StableHlo.after hostOps0 (W0 m ρ c) (Proc.devRef .tc main_v1) = _
  after_results; rfl
theorem V1_v2 (c : Dev nD) : V1 m ρ c main_v2 = shapeCast S1x32 (m ((c : Thread nD τ).loc main_arg7)) shapeCasts_S32_S1x32 := by
  show StableHlo.after hostOps0 (W0 m ρ c) (Proc.devRef .tc main_v2) = _
  after_results; rfl
theorem V1_v3 (c : Dev nD) : V1 m ρ c main_v3 = shapeCast S1x32 (m ((c : Thread nD τ).loc main_arg9)) shapeCasts_S32_S1x32 := by
  show StableHlo.after hostOps0 (W0 m ρ c) (Proc.devRef .tc main_v3) = _
  after_results; rfl
theorem V1_v4 (c : Dev nD) : V1 m ρ c main_v4 = shapeCast S1x256 (m ((c : Thread nD τ).loc main_arg11)) shapeCasts_S256_S1x256 := by
  show StableHlo.after hostOps0 (W0 m ρ c) (Proc.devRef .tc main_v4) = _
  after_results; rfl
theorem V1_v5 (c : Dev nD) : V1 m ρ c main_v5 = shapeCast S1x256 (m ((c : Thread nD τ).loc main_arg13)) shapeCasts_S256_S1x256 := by
  show StableHlo.after hostOps0 (W0 m ρ c) (Proc.devRef .tc main_v5) = _
  after_results; rfl
theorem V1_v6 (c : Dev nD) : V1 m ρ c main_v6 = shapeCast S1x1 (m ((c : Thread nD τ).loc main_arg15)) shapeCasts_S1_S1x1 := by
  show StableHlo.after hostOps0 (W0 m ρ c) (Proc.devRef .tc main_v6) = _
  after_results; rfl

/-- … and leaves the argument arrays as launched. -/
theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg8 (c : Dev nD) : V1 m ρ c main_arg8 = m ((c : Thread nD τ).loc main_arg8) := by
  show StableHlo.after hostOps0 (W0 m ρ c) (Proc.devRef .tc main_arg8) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg12 (c : Dev nD) : V1 m ρ c main_arg12 = m ((c : Thread nD τ).loc main_arg12) := by
  show StableHlo.after hostOps0 (W0 m ρ c) (Proc.devRef .tc main_arg12) = _
  after_results
theorem V1_arg14 (c : Dev nD) : V1 m ρ c main_arg14 = m ((c : Thread nD τ).loc main_arg14) := by
  show StableHlo.after hostOps0 (W0 m ρ c) (Proc.devRef .tc main_arg14) = _
  after_results

/-- The first region writes none of the second region's input arrays. -/
theorem V2_main_arg1 (c : Dev nD) : V2 m ρ c main_arg1 = V1 m ρ c main_arg1 := W2_of_ne m ρ c main_arg1 (by decide)
theorem V2_main_arg12 (c : Dev nD) : V2 m ρ c main_arg12 = V1 m ρ c main_arg12 := W2_of_ne m ρ c main_arg12 (by decide)
theorem V2_main_v5 (c : Dev nD) : V2 m ρ c main_v5 = V1 m ρ c main_v5 := W2_of_ne m ρ c main_v5 (by decide)
theorem V2_main_arg14 (c : Dev nD) : V2 m ρ c main_arg14 = V1 m ρ c main_arg14 := W2_of_ne m ρ c main_arg14 (by decide)
theorem V2_main_v6 (c : Dev nD) : V2 m ρ c main_v6 = V1 m ρ c main_v6 := W2_of_ne m ρ c main_v6 (by decide)

/-- The third region's inputs are the first two regions' outputs, which no later region writes before it. -/
theorem V3_v7 (c : Dev nD) : V3 m ρ c main_v7 = (dat0 (V1 m ρ) c).arrAt 11 cfg0.N :=
  (W3_of_ne m ρ c main_v7 (by decide)).trans (W2_arr m ρ c 11)
theorem V3_v8_0 (c : Dev nD) : V3 m ρ c main_v8_0 = (dat1 (V2 m ρ) c).arrAt 5 cfg1.N := W3_arr m ρ c 5
theorem V3_v8_1 (c : Dev nD) : V3 m ρ c main_v8_1 = (dat1 (V2 m ρ) c).arrAt 6 cfg1.N := W3_arr m ρ c 6
theorem W4_v9 (c : Dev nD) : W4 m ρ c (Proc.devRef .tc main_v9) = (dat2 (V3 m ρ) c).arrAt 3 cfg2.N := W4_arr m ρ c 3

end AnyF

/-! ## The result at the ideal values -/

section AtIdeal

open Cert.Net

variable (m : (ℓ : Loc nD τ sig) → Buf (Elt Ideal) ℓ) (ρ : Dev nD → PrngReg)

/-- The three kernels' bodies as the specification's functions (proved beside this module, from the bodies' terms). -/
structure Bodies : Prop where
  b0 : ∀ (x0 : Vec Ideal S4096x128 .f32) (x1 : Vec Ideal S128x32 .f32) (x2 : Vec Ideal S1x32 .f32) (x3 : Vec Ideal S32x32 .f32)
      (x4 : Vec Ideal S1x32 .f32) (x5 : Vec Ideal S32x32 .f32) (x6 : Vec Ideal S1x32 .f32) (x7 : Vec Ideal S32x32 .f32)
      (x8 : Vec Ideal S1x32 .f32) (x9 : Vec Ideal S32x256 .f32) (x10 : Vec Ideal S1x256 .f32),
      out0_11 (F := Ideal) x0 x1 x2 x3 x4 x5 x6 x7 x8 x9 x10 = branch x0 x1 x2 x3 x4 x5 x6 x7 x8 x9 x10
  b1m : ∀ (x0 : Vec Ideal S8192x2 .f32) (x1 : Vec Ideal S2x256 .f32) (x2 : Vec Ideal S1x256 .f32) (x3 : Vec Ideal S2x1 .f32)
      (x4 : Vec Ideal S1x1 .f32), out1_5 (F := Ideal) x0 x1 x2 x3 x4 = linear x0 x1 x2
  b1b : ∀ (x0 : Vec Ideal S8192x2 .f32) (x1 : Vec Ideal S2x256 .f32) (x2 : Vec Ideal S1x256 .f32) (x3 : Vec Ideal S2x1 .f32)
      (x4 : Vec Ideal S1x1 .f32), out1_6 (F := Ideal) x0 x1 x2 x3 x4 = (repeatRow (meanRow x3 x0 x4) : FVec Ideal S8x8192 .f32)
  b2 : ∀ (x0 x1 : Vec Ideal S2048x256 .f32) (x2 : Vec Ideal S8x2048 .f32), out2_3 (F := Ideal) x0 x1 x2 = pairing x0 x1 x2

/-- The coefficients: the first region's output is the branch network of the launched arrays. -/
theorem coeffs_eq (hB : Bodies) (c : Dev nD) : V3 m ρ c main_v7
    = branch (m ((c : Thread nD τ).loc main_arg0) : FVec Ideal S4096x128 .f32) (m ((c : Thread nD τ).loc main_arg2))
        (asRow (m ((c : Thread nD τ).loc main_arg3))) (m ((c : Thread nD τ).loc main_arg4))
        (asRow (m ((c : Thread nD τ).loc main_arg5))) (m ((c : Thread nD τ).loc main_arg6))
        (asRow (m ((c : Thread nD τ).loc main_arg7))) (m ((c : Thread nD τ).loc main_arg8))
        (asRow (m ((c : Thread nD τ).loc main_arg9))) (m ((c : Thread nD τ).loc main_arg10))
        (asRow (m ((c : Thread nD τ).loc main_arg11))) := by
  rw [V3_v7, Regions.region0_out, hB.b0, V1_arg0, V1_arg2, V1_arg4, V1_arg6, V1_arg8, V1_arg10, V1_v0, V1_v1, V1_v2, V1_v3, V1_v4,
    shapeCast_eq_asRow (B := 32) (m ((c : Thread nD τ).loc main_arg3)) shapeCasts_S32_S1x32,
    shapeCast_eq_asRow (B := 32) (m ((c : Thread nD τ).loc main_arg5)) shapeCasts_S32_S1x32,
    shapeCast_eq_asRow (B := 32) (m ((c : Thread nD τ).loc main_arg7)) shapeCasts_S32_S1x32,
    shapeCast_eq_asRow (B := 32) (m ((c : Thread nD τ).loc main_arg9)) shapeCasts_S32_S1x32,
    shapeCast_eq_asRow (B := 256) (m ((c : Thread nD τ).loc main_arg11)) shapeCasts_S256_S1x256]

/-- The modes: the second region's first output is the trunk layer of the launched arrays. -/
theorem modes_eq (hB : Bodies) (c : Dev nD) : V3 m ρ c main_v8_0
    = linear (m ((c : Thread nD τ).loc main_arg1) : FVec Ideal S8192x2 .f32) (m ((c : Thread nD τ).loc main_arg12))
        (asRow (m ((c : Thread nD τ).loc main_arg13))) := by
  rw [V3_v8_0, Regions.region1_modes, hB.b1m, V2_main_arg1, V2_main_arg12, V2_main_v5, V1_arg1, V1_arg12, V1_v5,
    shapeCast_eq_asRow (B := 256) (m ((c : Thread nD τ).loc main_arg13)) shapeCasts_S256_S1x256]

/-- The mean values: the second region's second output is the mean row of the launched arrays, repeated eight times. -/
theorem mean_eq (hB : Bodies) (c : Dev nD) : V3 m ρ c main_v8_1
    = (repeatRow (meanRow (m ((c : Thread nD τ).loc main_arg14) : FVec Ideal S2x1 .f32) (m ((c : Thread nD τ).loc main_arg1))
        (asRow (m ((c : Thread nD τ).loc main_arg15)))) : FVec Ideal S8x8192 .f32) := by
  rw [V3_v8_1, Regions.region1_mean, hB.b1b, V2_main_arg1, V2_main_arg14, V2_main_v6, V1_arg1, V1_arg14, V1_v6,
    shapeCast_eq_asRow (B := 1) (m ((c : Thread nD τ).loc main_arg15)) shapeCasts_S1_S1x1]

/-- THE RESULT: the program's result buffer ends at the flattened output field of the launched arrays. -/
theorem result_eq (hB : Bodies) (c : Dev nD) : W5 m ρ c (Proc.devRef .tc main_v10)
    = shapeCast S33554432 (field (m ((c : Thread nD τ).loc main_arg0) : FVec Ideal S4096x128 .f32)
        (m ((c : Thread nD τ).loc main_arg1) : FVec Ideal S8192x2 .f32) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15))) shapeCasts_S4096x8192_S33554432 := by
  rw [W5_result, W4_v9, Regions.region2_out (V3 m ρ) hB.b2, coeffs_eq m ρ hB, modes_eq m ρ hB, mean_eq m ρ hB, pairing_repeatRow]
  rfl

end AtIdeal

end Cert.Net.Run

end
-- ==== Proof.lean ====
/-
  The certificate of an operator network: a tiled kernel program against its array-level reference.

  Both programs compute, from 4096 noise vectors, 8192 coordinates and the weights of three small networks, the field
  g(p, c) = Σ_k B(p, k) · T(c, k) + μ(c), flattened row by row, where B is a branch network (four layers
  tanh(x·w + b) and a linear head) of the noise, T a linear layer of the coordinates and μ a second linear map of
  the coordinates.  The kernel program computes B in one tiled region, T and μ (repeated down eight rows) in a second,
  and g in a third, block by block on a 2 × 4 grid, with the operands of the last product rounded to bf16; the
  reference applies whole-array host operations.  Over the extended reals a change of float format is the identity, a
  matrix product in a kernel and on the host are the same finite sum, and the only arithmetic law that joins the two
  sides is the commutativity of the product (the kernel forms μ as wm · coords, the reference as coords · wm), so the
  inputs' finiteness is never used.

  The pieces: the specification (Proof/Spec.lean); the reference's composed term is the specification
  (Proof/RefValue.lean); the three kernels' bodies are the specification's layers (Proof/KernelBodies.lean); each
  region's output array is its body's function of the arrays the region finds, the third region's blocks tiling its
  array (Proof/KernelRegions.lean); the kernel program's run read at its result (Proof/KernelRun.lean).  The three
  frames are the generated frame certificates and the reference's generated run; no operation was rewritten by the
  ideal pass, so the idealization claim is trivial.
-/
import proofs.«123991_j42245298323680_2_alg».proof.Defs
import proofs.«123991_j42245298323680_2_alg».proof.Proof.Gen.Kernel
import proofs.«123991_j42245298323680_2_alg».proof.Proof.Gen.Kernel.Skeleton
import proofs.«123991_j42245298323680_2_alg».proof.Proof.Gen.Kernel.Launch
import proofs.«123991_j42245298323680_2_alg».proof.Proof.Gen.Kernel.Points
import proofs.«123991_j42245298323680_2_alg».proof.Proof.Gen.Kernel.Frame
import proofs.«123991_j42245298323680_2_alg».proof.Proof.Gen.KernelIdeal
import proofs.«123991_j42245298323680_2_alg».proof.Proof.Gen.KernelIdeal.Skeleton
import proofs.«123991_j42245298323680_2_alg».proof.Proof.Gen.KernelIdeal.Launch
import proofs.«123991_j42245298323680_2_alg».proof.Proof.Gen.KernelIdeal.Points
import proofs.«123991_j42245298323680_2_alg».proof.Proof.Gen.KernelIdeal.Frame
import proofs.«123991_j42245298323680_2_alg».proof.Proof.Gen.ReferenceIdeal
import proofs.«123991_j42245298323680_2_alg».proof.Proof.Gen.ReferenceIdeal.Run
import proofs.«123991_j42245298323680_2_alg».proof.Proof.Gen.ReferenceIdeal.Read
import proofs.«123991_j42245298323680_2_alg».proof.Proof.Gen.Pre_finite_inputs
import proofs.«123991_j42245298323680_2_alg».proof.Proof.Spec
import proofs.«123991_j42245298323680_2_alg».proof.Proof.RefValue
import proofs.«123991_j42245298323680_2_alg».proof.Proof.KernelBodies
import proofs.«123991_j42245298323680_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the idealized kernel program was printed. -/
theorem preserves : Cert.preserves_Kernel_KernelIdeal := trivial

/-- The three kernels' bodies are the specification's layers. -/
theorem bodies : Cert.Net.Run.Bodies :=
  ⟨Cert.Net.Body.body0, Cert.Net.Body.body1_modes, Cert.Net.Body.body1_mean, Cert.Net.Body.body2⟩

/-- From memories that agree on the arguments both programs end with the flattened output field of those arguments. -/
theorem algebraic : Cert.algebraic_KernelIdeal_ReferenceIdeal := by
  intro m ρ m' ρ' _ hagree
  refine ⟨fun c => shapeCast Cert.KernelIdeal.S33554432 (Cert.Net.field
        (m ((c.tc : Thread Cert.KernelIdeal.nD Cert.KernelIdeal.τ).loc Cert.KernelIdeal.main_arg0) : FVec Ideal Cert.KernelIdeal.S4096x128 .f32)
        (m ((c.tc : Thread Cert.KernelIdeal.nD Cert.KernelIdeal.τ).loc Cert.KernelIdeal.main_arg1) : FVec Ideal Cert.KernelIdeal.S8192x2 .f32)
        (m ((c.tc : Thread Cert.KernelIdeal.nD Cert.KernelIdeal.τ).loc Cert.KernelIdeal.main_arg2) : FVec Ideal Cert.KernelIdeal.S128x32 .f32)
        (m ((c.tc : Thread Cert.KernelIdeal.nD Cert.KernelIdeal.τ).loc Cert.KernelIdeal.main_arg3) : FVec Ideal Cert.KernelIdeal.S32 .f32)
        (m ((c.tc : Thread Cert.KernelIdeal.nD Cert.KernelIdeal.τ).loc Cert.KernelIdeal.main_arg4) : FVec Ideal Cert.KernelIdeal.S32x32 .f32)
        (m ((c.tc : Thread Cert.KernelIdeal.nD Cert.KernelIdeal.τ).loc Cert.KernelIdeal.main_arg5) : FVec Ideal Cert.KernelIdeal.S32 .f32)
        (m ((c.tc : Thread Cert.KernelIdeal.nD Cert.KernelIdeal.τ).loc Cert.KernelIdeal.main_arg6) : FVec Ideal Cert.KernelIdeal.S32x32 .f32)
        (m ((c.tc : Thread Cert.KernelIdeal.nD Cert.KernelIdeal.τ).loc Cert.KernelIdeal.main_arg7) : FVec Ideal Cert.KernelIdeal.S32 .f32)
        (m ((c.tc : Thread Cert.KernelIdeal.nD Cert.KernelIdeal.τ).loc Cert.KernelIdeal.main_arg8) : FVec Ideal Cert.KernelIdeal.S32x32 .f32)
        (m ((c.tc : Thread Cert.KernelIdeal.nD Cert.KernelIdeal.τ).loc Cert.KernelIdeal.main_arg9) : FVec Ideal Cert.KernelIdeal.S32 .f32)
        (m ((c.tc : Thread Cert.KernelIdeal.nD Cert.KernelIdeal.τ).loc Cert.KernelIdeal.main_arg10) : FVec Ideal Cert.KernelIdeal.S32x256 .f32)
        (m ((c.tc : Thread Cert.KernelIdeal.nD Cert.KernelIdeal.τ).loc Cert.KernelIdeal.main_arg11) : FVec Ideal Cert.KernelIdeal.S256 .f32)
        (m ((c.tc : Thread Cert.KernelIdeal.nD Cert.KernelIdeal.τ).loc Cert.KernelIdeal.main_arg12) : FVec Ideal Cert.KernelIdeal.S2x256 .f32)
        (m ((c.tc : Thread Cert.KernelIdeal.nD Cert.KernelIdeal.τ).loc Cert.KernelIdeal.main_arg13) : FVec Ideal Cert.KernelIdeal.S256 .f32)
        (m ((c.tc : Thread Cert.KernelIdeal.nD Cert.KernelIdeal.τ).loc Cert.KernelIdeal.main_arg14) : FVec Ideal Cert.KernelIdeal.S2x1 .f32)
        (m ((c.tc : Thread Cert.KernelIdeal.nD Cert.KernelIdeal.τ).loc Cert.KernelIdeal.main_arg15) : FVec Ideal Cert.KernelIdeal.S1 .f32)) Cert.KernelIdeal.Facts₀.shapeCasts_S4096x8192_S33554432, ?_, ?_⟩
  · exact (θ_run Cert.KernelIdeal.defs _ _).mono
      (fun r h c => ⟨(h c).1.trans (Cert.Net.Run.result_eq m ρ bodies c), (h c).2⟩) (Cert.Net.Run.run_result m ρ)
  · refine (θ_run Cert.ReferenceIdeal.defs _ _).mono (fun _ h c => ⟨(h c).1.trans ?_, (h c).2⟩)
      (Cert.ReferenceIdeal.Value.run (F := Ideal) m' ρ')
    refine (Cert.Net.Ref.ref_eq _ _ _ _ _ _ _ _ _ _ _ _ _ _ _ _).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
